-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S2x200000 : Shape := ⟨2, ![2, 200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x1600000 32) (main_arg6 : IVec S100000 32) (main_arg7 : IVec S2x200000 32) (main_arg8 : IVec S2x200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S2x200000 : Shape := ⟨2, ![2, 200000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S10000 : Shape := ⟨1, ![10000]⟩

abbrev nBuf : Space → Nat
  | .hbm => 100
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S2x200000, .i32⟩
  | .hbm, ⟨8, _⟩ => ⟨S2x200000, .i32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x1, .i32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000x1, .i32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S2x400000, .i32⟩
  | .hbm, ⟨76, _⟩ => ⟨S1x400000, .i32⟩
  | .hbm, ⟨77, _⟩ => ⟨S400000, .i32⟩
  | .hbm, ⟨78, _⟩ => ⟨S_, .i32⟩
  | .hbm, ⟨79, _⟩ => ⟨S400000, .i32⟩
  | .hbm, ⟨80, _⟩ => ⟨S400000, .i1⟩
  | .hbm, ⟨81, _⟩ => ⟨S_, .i32⟩
  | .hbm, ⟨82, _⟩ => ⟨S400000, .i32⟩
  | .hbm, ⟨83, _⟩ => ⟨S400000, .i32⟩
  | .hbm, ⟨84, _⟩ => ⟨S400000, .i32⟩
  | .hbm, ⟨85, _⟩ => ⟨S400000x1, .i32⟩
  | .hbm, ⟨86, _⟩ => ⟨S400000x128, .f32⟩
  | .hbm, ⟨87, _⟩ => ⟨S1x400000, .i32⟩
  | .hbm, ⟨88, _⟩ => ⟨S400000, .i32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S400000x128, .f32⟩
  | .hbm, ⟨98, _⟩ => ⟨S400000x1, .f32⟩
  | .hbm, ⟨99, _⟩ => ⟨S400000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x1, .f32⟩
  | .local _ .vmem, ⟨39, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S100000_S100000x1_0 : S100000.BroadcastsInDim S100000x1 (![0] : Fin 1 → Fin S100000x1.rank)
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reduces_S10000x128_S10000 : S10000x128.Reduces [1] S10000
  shapeCasts_S10000_S10000x1 : S10000.ShapeCasts S10000x1
  shapeCasts_S400000x1_S400000 : S400000x1.ShapeCasts S400000
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S400000x1_S400000x128_1_0_n_n_0_1_1128_wf : GatherDims.WF S100000x128 S400000x1 S400000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S400000x128.size a
  hwx5_0 : ∀ i : grid5.Coords, EltTy.bits .f32 = 32 ∨ (Rect.block (s := S400000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S400000x128.size a
  hwx5_1 : ∀ i : grid5.Coords, EltTy.bits .f32 = 32 ∨ (Rect.block (s := S400000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S400000x1.size a
  hwx5_2 : ∀ i : grid5.Coords, EltTy.bits .f32 = 32 ∨ (Rect.block (s := S400000x1) S10000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S2x200000 : Shape := ⟨2, ![2, 200000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S2x1600000, .i32⟩
  | 6 => ⟨S100000, .i32⟩
  | 7 => ⟨S2x200000, .i32⟩
  | 8 => ⟨S2x200000, .i32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x1, .i32⟩
  | 3 => ⟨S100000x128, .f32⟩
  | 4 => ⟨S_, .f32⟩
  | 5 => ⟨S100000, .f32⟩
  | 6 => ⟨S_, .f32⟩
  | 7 => ⟨S100000, .f32⟩
  | 8 => ⟨S100000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S2x400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S1x400000, .i32⟩
  | 29 => ⟨S400000, .i32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S400000x128, .f32⟩
  | 40 => ⟨S_, .f32⟩
  | 41 => ⟨S400000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_24 : Ref sig .tc := ⟨.hbm, 147, rfl⟩
abbrev main_v104 : Ref sig .tc := ⟨.hbm, 148, rfl⟩
abbrev main_v105 : Ref sig .tc := ⟨.hbm, 149, rfl⟩
abbrev main_c_25 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_26 : Ref sig .tc := ⟨.hbm, 158, rfl⟩
abbrev main_v113 : Ref sig .tc := ⟨.hbm, 159, rfl⟩
abbrev main_v114 : Ref sig .tc := ⟨.hbm, 160, rfl⟩
abbrev main_c_27 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_28 : Ref sig .tc := ⟨.hbm, 168, rfl⟩
abbrev main_v121 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x128_S400000_d1 : S400000x128.ReducesTo [1] S400000
  h_S_ : 0 < S_.numel
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S400000x1_S400000x128_1_0_n_n_0_1_1128_wf : GatherDims.WF S100000x128 S400000x1 S400000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf

class Facts : Prop extends Facts₀ where

variable [Facts]
-- ==== Proof.KernelRun.lean ====
/-
  The idealized kernel's run with its result named.

  The program is six pipelined regions among stretches of host operations.  Its frame run follows the buffer
  contents from the launch through the fourteen segments; the contents after the last segment are one fold of the
  launch memory.  Here the same run is stated with the final state read at the result buffer as well as at the nine
  argument arrays: the result ends at what that fold leaves in it, the arguments end as launched.
-/
import proofs.«109980_j48129403519138_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault; the
    result buffer ends at the contents the fold through the fourteen segments leaves in it, and every argument
    array ends as it was launched. -/
theorem run_result : θ_run defs (onTc (τ := τ) (main (F := F))) ⟨m, fun _ => 0, ρ⟩ (fun r => ∀ c : Dev nD,
      r.2.mem ((c.tc : Thread nD τ).loc main_v71) = W14 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v71 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ResultRun

end
-- ==== Proof.RefRun.lean ====
/-
  The idealized reference's run.

  The reference is a straight line of 161 host operations: the two endpoint lists with a self loop appended per node,
  the degree by an accumulating scatter of ones, its inverse square root where the degree is positive, and then, for
  each of the two layers, a matrix product, a gather of the source rows, the scaling of every gathered row by the two
  endpoints' inverse square roots, an accumulating scatter onto the target rows, the bias and the maximum with zero;
  the mean over the pooling segments; and, for every decoded pair, the sum over the features of the product of the two
  pooled rows.  Every weakly fair execution of such a line terminates, and every buffer ends at the fold of the
  operations' results over its launch contents.  The result buffer is left at that fold, to be read one stage at a
  time; the nine argument arrays, which no operation writes, end as launched.
-/
import proofs.«109980_j48129403519138_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem

variable {F : FTy → Type} [FloatOps F]

/-- The program's operations in order, a called function's operations standing in its call's place. -/
abbrev ops : List (HloOp τ sig (Elt F)) :=
  [ StableHlo.nullary main_v0 (iotaInDim S100000 32 0),
    StableHlo.unary main_arg5 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg5 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_arg0 main_arg1 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg2 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v46 : StableHlo.TRef sig ⟨S100000x128, .f32⟩) (.of main_call1_v0 : StableHlo.TRef sig ⟨S100000x128, .f32⟩) (.of main_v47 : StableHlo.TRef sig ⟨S100000x128, .f32⟩) maximumf,
    StableHlo.binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_9 (constant S_ .f32 0x3F800000#32),
    StableHlo.unary main_cst_9 main_v49 (broadcastInDim S1700000 ![] bcast_S_S1700000 : (⟨S_, .f32⟩ : BufTy).Contents (Elt F) → (⟨S1700000, .f32⟩ : BufTy).Contents (Elt F)),
    StableHlo.nullary main_cst_10 (constant S_ .f32 0x00000000#32),
    StableHlo.unary main_cst_10 main_v50 (broadcastInDim S100000 ![] bcast_S_S100000 : (⟨S_, .f32⟩ : BufTy).Contents (Elt F) → (⟨S100000, .f32⟩ : BufTy).Contents (Elt F)),
    StableHlo.unary main_v6 main_v51 (broadcastInDim S1700000x1 ![0] bcast_S1700000_S1700000x1_0 : (⟨S1700000, .i32⟩ : BufTy).Contents (Elt F) → (⟨S1700000x1, .i32⟩ : BufTy).Contents (Elt F)),
    StableHlo.ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v53 (broadcastInDim S100000 ![] bcast_S_S100000 : (⟨S_, .f32⟩ : BufTy).Contents (Elt F) → (⟨S100000, .f32⟩ : BufTy).Contents (Elt F)),
    StableHlo.binary main_v52 main_v53 main_v54 (cmpf .ogt : (⟨S100000, .f32⟩ : BufTy).Contents (Elt F) → (⟨S100000, .f32⟩ : BufTy).Contents (Elt F) → (⟨S100000, .i1⟩ : BufTy).Contents (Elt F)),
    StableHlo.unary main_v52 main_v55 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S100000, .f32⟩) (broadcastInDim S100000 ![] bcast_S_S100000),
    StableHlo.TRef.ternary (.of main_v54 : StableHlo.TRef sig ⟨S100000, .i1⟩) (.of main_v55 : StableHlo.TRef sig ⟨S100000, .f32⟩) (.of main_call2_v1 : StableHlo.TRef sig ⟨S100000, .f32⟩) (.of main_v56 : StableHlo.TRef sig ⟨S100000, .f32⟩) select,
    StableHlo.nullary main_c_13 (constantI S_ 32 0#32),
    StableHlo.unary main_c_13 main_v57 (broadcastInDim S1700000 ![] bcast_S_S1700000 : (⟨S_, .i32⟩ : BufTy).Contents (Elt F) → (⟨S1700000, .i32⟩ : BufTy).Contents (Elt F)),
    StableHlo.binary main_v3 main_v57 main_v58 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v59 (broadcastInDim S1700000 ![] bcast_S_S1700000 : (⟨S_, .i32⟩ : BufTy).Contents (Elt F) → (⟨S1700000, .i32⟩ : BufTy).Contents (Elt F)),
    StableHlo.binary main_v3 main_v59 main_v60 (addi : (⟨S1700000, .i32⟩ : BufTy).Contents (Elt F) → (⟨S1700000, .i32⟩ : BufTy).Contents (Elt F) → (⟨S1700000, .i32⟩ : BufTy).Contents (Elt F)),
    StableHlo.ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v61 main_v62 (broadcastInDim S1700000x1 ![0] bcast_S1700000_S1700000x1_0 : (⟨S1700000, .i32⟩ : BufTy).Contents (Elt F) → (⟨S1700000x1, .i32⟩ : BufTy).Contents (Elt F)),
    StableHlo.binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_15 (constantI S_ 32 0#32),
    StableHlo.unary main_c_15 main_v64 (broadcastInDim S1700000 ![] bcast_S_S1700000 : (⟨S_, .i32⟩ : BufTy).Contents (Elt F) → (⟨S1700000, .i32⟩ : BufTy).Contents (Elt F)),
    StableHlo.binary main_v6 main_v64 main_v65 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v66 (broadcastInDim S1700000 ![] bcast_S_S1700000 : (⟨S_, .i32⟩ : BufTy).Contents (Elt F) → (⟨S1700000, .i32⟩ : BufTy).Contents (Elt F)),
    StableHlo.binary main_v6 main_v66 main_v67 (addi : (⟨S1700000, .i32⟩ : BufTy).Contents (Elt F) → (⟨S1700000, .i32⟩ : BufTy).Contents (Elt F) → (⟨S1700000, .i32⟩ : BufTy).Contents (Elt F)),
    StableHlo.ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v68 main_v69 (broadcastInDim S1700000x1 ![0] bcast_S1700000_S1700000x1_0 : (⟨S1700000, .i32⟩ : BufTy).Contents (Elt F) → (⟨S1700000x1, .i32⟩ : BufTy).Contents (Elt F)),
    StableHlo.binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v63 main_v70 main_v71 (mulf : (⟨S1700000, .f32⟩ : BufTy).Contents (Elt F) → (⟨S1700000, .f32⟩ : BufTy).Contents (Elt F) → (⟨S1700000, .f32⟩ : BufTy).Contents (Elt F)),
    StableHlo.nullary main_c_17 (constantI S_ 32 0#32),
    StableHlo.unary main_c_17 main_v72 (broadcastInDim S1700000 ![] bcast_S_S1700000 : (⟨S_, .i32⟩ : BufTy).Contents (Elt F) → (⟨S1700000, .i32⟩ : BufTy).Contents (Elt F)),
    StableHlo.binary main_v3 main_v72 main_v73 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v74 (broadcastInDim S1700000 ![] bcast_S_S1700000 : (⟨S_, .i32⟩ : BufTy).Contents (Elt F) → (⟨S1700000, .i32⟩ : BufTy).Contents (Elt F)),
    StableHlo.binary main_v3 main_v74 main_v75 (addi : (⟨S1700000, .i32⟩ : BufTy).Contents (Elt F) → (⟨S1700000, .i32⟩ : BufTy).Contents (Elt F) → (⟨S1700000, .i32⟩ : BufTy).Contents (Elt F)),
    StableHlo.ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v76 main_v77 (broadcastInDim S1700000x1 ![0] bcast_S1700000_S1700000x1_0 : (⟨S1700000, .i32⟩ : BufTy).Contents (Elt F) → (⟨S1700000x1, .i32⟩ : BufTy).Contents (Elt F)),
    StableHlo.binary main_v48 main_v77 main_v78 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v71 main_v79 (broadcastInDim S1700000x1 ![0] bcast_S1700000_S1700000x1_0 : (⟨S1700000, .f32⟩ : BufTy).Contents (Elt F) → (⟨S1700000x1, .f32⟩ : BufTy).Contents (Elt F)),
    StableHlo.unary main_v79 main_v80 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v78 main_v80 main_v81 (mulf : (⟨S1700000x128, .f32⟩ : BufTy).Contents (Elt F) → (⟨S1700000x128, .f32⟩ : BufTy).Contents (Elt F) → (⟨S1700000x128, .f32⟩ : BufTy).Contents (Elt F)),
    StableHlo.nullary main_cst_19 (constant S_ .f32 0x00000000#32),
    StableHlo.unary main_cst_19 main_v82 (broadcastInDim S100000x128 ![] bcast_S_S100000x128 : (⟨S_, .f32⟩ : BufTy).Contents (Elt F) → (⟨S100000x128, .f32⟩ : BufTy).Contents (Elt F)),
    StableHlo.unary main_v6 main_v83 (broadcastInDim S1700000x1 ![0] bcast_S1700000_S1700000x1_0 : (⟨S1700000, .i32⟩ : BufTy).Contents (Elt F) → (⟨S1700000x1, .i32⟩ : BufTy).Contents (Elt F)),
    StableHlo.ternary main_v82 main_v83 main_v81 main_v84 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v86 main_v87 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v87 : StableHlo.TRef sig ⟨S100000x128, .f32⟩) (.of main_call3_v0 : StableHlo.TRef sig ⟨S100000x128, .f32⟩) (.of main_v88 : StableHlo.TRef sig ⟨S100000x128, .f32⟩) maximumf,
    StableHlo.nullary main_cst_20 (constant S_ .f32 0x00000000#32),
    StableHlo.unary main_cst_20 main_v89 (broadcastInDim S100000x128 ![] bcast_S_S100000x128 : (⟨S_, .f32⟩ : BufTy).Contents (Elt F) → (⟨S100000x128, .f32⟩ : BufTy).Contents (Elt F)),
    StableHlo.unary main_arg6 main_v90 (broadcastInDim S100000x1 ![0] bcast_S100000_S100000x1_0 : (⟨S100000, .i32⟩ : BufTy).Contents (Elt F) → (⟨S100000x1, .i32⟩ : BufTy).Contents (Elt F)),
    StableHlo.ternary main_v89 main_v90 main_v88 main_v91 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    StableHlo.nullary main_cst_21 (constant S_ .f32 0x3F800000#32),
    StableHlo.unary main_cst_21 main_v92 (broadcastInDim S100000 ![] bcast_S_S100000 : (⟨S_, .f32⟩ : BufTy).Contents (Elt F) → (⟨S100000, .f32⟩ : BufTy).Contents (Elt F)),
    StableHlo.nullary main_cst_22 (constant S_ .f32 0x00000000#32),
    StableHlo.unary main_cst_22 main_v93 (broadcastInDim S100000 ![] bcast_S_S100000 : (⟨S_, .f32⟩ : BufTy).Contents (Elt F) → (⟨S100000, .f32⟩ : BufTy).Contents (Elt F)),
    StableHlo.unary main_arg6 main_v94 (broadcastInDim S100000x1 ![0] bcast_S100000_S100000x1_0 : (⟨S100000, .i32⟩ : BufTy).Contents (Elt F) → (⟨S100000x1, .i32⟩ : BufTy).Contents (Elt F)),
    StableHlo.ternary main_v93 main_v94 main_v92 main_v95 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    StableHlo.nullary main_cst_23 (constant S_ .f32 0x3F800000#32),
    StableHlo.unary main_cst_23 main_v96 (broadcastInDim S100000 ![] bcast_S_S100000 : (⟨S_, .f32⟩ : BufTy).Contents (Elt F) → (⟨S100000, .f32⟩ : BufTy).Contents (Elt F)),
    StableHlo.binary main_v95 main_v96 main_v97 (maximumf : (⟨S100000, .f32⟩ : BufTy).Contents (Elt F) → (⟨S100000, .f32⟩ : BufTy).Contents (Elt F) → (⟨S100000, .f32⟩ : BufTy).Contents (Elt F)),
    StableHlo.unary main_v97 main_v98 (broadcastInDim S100000x1 ![0] bcast_S100000_S100000x1_0 : (⟨S100000, .f32⟩ : BufTy).Contents (Elt F) → (⟨S100000x1, .f32⟩ : BufTy).Contents (Elt F)),
    StableHlo.unary main_v98 main_v99 (broadcastInDim S100000x128 ![0, 1] bcast_S100000x1_S100000x128_0_1 : (⟨S100000x1, .f32⟩ : BufTy).Contents (Elt F) → (⟨S100000x128, .f32⟩ : BufTy).Contents (Elt F)),
    StableHlo.binary main_v91 main_v99 main_v100 (Host.divf : (⟨S100000x128, .f32⟩ : BufTy).Contents (Elt F) → (⟨S100000x128, .f32⟩ : BufTy).Contents (Elt F) → (⟨S100000x128, .f32⟩ : BufTy).Contents (Elt F)),
    StableHlo.binary main_arg7 main_arg8 main_v101 ((fun a b => concatenate S2x400000 1 [⟨S2x200000, a⟩, ⟨S2x200000, b⟩] concatenates_S2x200000_S2x200000_S2x400000_d1) : (⟨S2x200000, .i32⟩ : BufTy).Contents (Elt F) → (⟨S2x200000, .i32⟩ : BufTy).Contents (Elt F) → (⟨S2x400000, .i32⟩ : BufTy).Contents (Elt F)),
    StableHlo.unary main_v101 main_v102 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v102 main_v103 rfl shapeCasts_S1x400000_S400000,
    StableHlo.nullary main_c_24 (constantI S_ 32 0#32),
    StableHlo.unary main_c_24 main_v104 (broadcastInDim S400000 ![] bcast_S_S400000 : (⟨S_, .i32⟩ : BufTy).Contents (Elt F) → (⟨S400000, .i32⟩ : BufTy).Contents (Elt F)),
    StableHlo.binary main_v103 main_v104 main_v105 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 100000#32),
    StableHlo.unary main_c_25 main_v106 (broadcastInDim S400000 ![] bcast_S_S400000 : (⟨S_, .i32⟩ : BufTy).Contents (Elt F) → (⟨S400000, .i32⟩ : BufTy).Contents (Elt F)),
    StableHlo.binary main_v103 main_v106 main_v107 (addi : (⟨S400000, .i32⟩ : BufTy).Contents (Elt F) → (⟨S400000, .i32⟩ : BufTy).Contents (Elt F) → (⟨S400000, .i32⟩ : BufTy).Contents (Elt F)),
    StableHlo.ternary main_v105 main_v107 main_v103 main_v108 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v108 main_v109 (broadcastInDim S400000x1 ![0] bcast_S400000_S400000x1_0 : (⟨S400000, .i32⟩ : BufTy).Contents (Elt F) → (⟨S400000x1, .i32⟩ : BufTy).Contents (Elt F)),
    StableHlo.binary main_v100 main_v109 main_v110 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.unary main_v101 main_v111 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v111 main_v112 rfl shapeCasts_S1x400000_S400000,
    StableHlo.nullary main_c_26 (constantI S_ 32 0#32),
    StableHlo.unary main_c_26 main_v113 (broadcastInDim S400000 ![] bcast_S_S400000 : (⟨S_, .i32⟩ : BufTy).Contents (Elt F) → (⟨S400000, .i32⟩ : BufTy).Contents (Elt F)),
    StableHlo.binary main_v112 main_v113 main_v114 (cmpi .slt : (⟨S400000, .i32⟩ : BufTy).Contents (Elt F) → (⟨S400000, .i32⟩ : BufTy).Contents (Elt F) → (⟨S400000, .i1⟩ : BufTy).Contents (Elt F)),
    StableHlo.nullary main_c_27 (constantI S_ 32 100000#32),
    StableHlo.unary main_c_27 main_v115 (broadcastInDim S400000 ![] bcast_S_S400000 : (⟨S_, .i32⟩ : BufTy).Contents (Elt F) → (⟨S400000, .i32⟩ : BufTy).Contents (Elt F)),
    StableHlo.binary main_v112 main_v115 main_v116 (addi : (⟨S400000, .i32⟩ : BufTy).Contents (Elt F) → (⟨S400000, .i32⟩ : BufTy).Contents (Elt F) → (⟨S400000, .i32⟩ : BufTy).Contents (Elt F)),
    StableHlo.ternary main_v114 main_v116 main_v112 main_v117 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v117 main_v118 (broadcastInDim S400000x1 ![0] bcast_S400000_S400000x1_0 : (⟨S400000, .i32⟩ : BufTy).Contents (Elt F) → (⟨S400000x1, .i32⟩ : BufTy).Contents (Elt F)),
    StableHlo.binary main_v100 main_v118 main_v119 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v110 main_v119 main_v120 (mulf : (⟨S400000x128, .f32⟩ : BufTy).Contents (Elt F) → (⟨S400000x128, .f32⟩ : BufTy).Contents (Elt F) → (⟨S400000x128, .f32⟩ : BufTy).Contents (Elt F)),
    StableHlo.nullary main_cst_28 (constant S_ .f32 0x00000000#32),
    StableHlo.binary main_v120 main_cst_28 main_v121 ((fun x v => Host.reduceAdd x v reducesTo_S400000x128_S400000_d1 h_S_) : (⟨S400000x128, .f32⟩ : BufTy).Contents (Elt F) → (⟨S_, .f32⟩ : BufTy).Contents (Elt F) → (⟨S400000, .f32⟩ : BufTy).Contents (Elt F)) ]

set_option maxHeartbeats 4000000 in
/-- The program is the sequence of its operations. -/
theorem main_eq (c : Dev nD) : main (F := F) c = StableHlo.seq ops := rfl

/-- No buffer of the TensorCore is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub ..⟩

open Idealize.ShloMosaic.StableHlo in
set_option maxRecDepth 8192 in
set_option maxHeartbeats 64400000 in
/-- From any memory with zero counters every weakly fair execution of the reference terminates; the result buffer
    ends at what the line of operations leaves in it, and each argument array ends as it was launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121) = after ops (launchContents m c) (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v121,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Line

end
-- ==== Proof.RefStages.lean ====
/-
  The reference's stages as functions of arrays.

  Nodes are numbered 0 … 99999 and carry 128 features; there are 1 600 000 given edges and one self loop per node,
  1 700 000 endpoint pairs in all.  A layer multiplies the node features by a weight matrix, gathers for every edge
  the row of its source, scales that row by the product of the two endpoints' inverse square root degrees, sums the
  scaled rows onto the target nodes, adds the bias and takes the maximum with zero.  The pooled array divides, node by
  node, the sum of the rows assigned to a segment by the larger of the segment's count and one.  The decoded value of a
  pair of nodes is the sum over the features of the product of their pooled rows.
-/
import proofs.«109980_j48129403519138_2_alg».proof.Proof.Gen.ReferenceIdeal

noncomputable section

namespace Cert.ReferenceIdeal.Stage

open Cert.ReferenceIdeal Cert.ReferenceIdeal.Gen Idealize.ShloMosaic

variable {F : FTy → Type} [FloatOps F]

/-- An array of 32-bit words of the given shape. -/
abbrev Words (F : FTy → Type) (s : Shape) : Type := (⟨s, .i32⟩ : BufTy).Contents (Elt F)
/-- An array of single-precision values of the given shape. -/
abbrev Reals (F : FTy → Type) (s : Shape) : Type := (⟨s, .f32⟩ : BufTy).Contents (Elt F)

/-- The sources: row 0 of the edge list, then every node once. -/
def sources (x5 : Words F S2x1600000) : Words F S1700000 :=
  concatenate S1700000 0 [⟨S1600000, shapeCast S1600000 (extractStridedSlice S1x1600000 ![0, 0] x5 slices_S2x1600000_S1x1600000_0_0) shapeCasts_S1x1600000_S1600000⟩, ⟨S100000, iotaInDim S100000 32 0⟩] concatenates_S1600000_S100000_S1700000_d0

/-- The targets: row 1 of the edge list, then every node once. -/
def targets (x5 : Words F S2x1600000) : Words F S1700000 :=
  concatenate S1700000 0 [⟨S1600000, shapeCast S1600000 (extractStridedSlice S1x1600000 ![1, 0] x5 slices_S2x1600000_S1x1600000_1_0) shapeCasts_S1x1600000_S1600000⟩, ⟨S100000, iotaInDim S100000 32 0⟩] concatenates_S1600000_S100000_S1700000_d0

/-- Node numbers as a gather reads them: a negative word counted from the end, the list as a column. -/
def wrapped (v : Words F S1700000) : Words F S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Zero at every node. -/
def nodeZeros : Reals F S100000 := broadcastInDim S100000 ![] bcast_S_S100000 (constant S_ .f32 0x00000000#32)
/-- One at every node. -/
def nodeOnes : Reals F S100000 := broadcastInDim S100000 ![] bcast_S_S100000 (constant S_ .f32 0x3F800000#32)
/-- One at every edge. -/
def edgeOnes : Reals F S1700000 := broadcastInDim S1700000 ![] bcast_S_S1700000 (constant S_ .f32 0x3F800000#32)
/-- Zero at every node and feature. -/
def featureZeros : Reals F S100000x128 := broadcastInDim S100000x128 ![] bcast_S_S100000x128 (constant S_ .f32 0x00000000#32)

/-- A node's degree: the number of edges whose target it is. -/
def degree (t : Words F S1700000) : Reals F S100000 :=
  Host.scatterAdd scatter_S100000_S1700000x1_S1700000_n_0_0_1 nodeZeros (broadcastInDim S1700000x1 ![0] bcast_S1700000_S1700000x1_0 t) edgeOnes

/-- The inverse square root of the degree where the degree is positive, zero elsewhere. -/
def invSqrtDegree (t : Words F S1700000) : Reals F S100000 :=
  select (cmpf (F := F) .ogt (degree t) nodeZeros) (Host.rsqrt (degree t)) nodeZeros

/-- An edge's weight: the product of its two endpoints' inverse square root degrees. -/
def edgeWeight (s t : Words F S1700000) : Reals F S1700000 :=
  mulf (Host.gather gather_S100000_S1700000x1_S1700000_n_0_n_n_0_1_1 (invSqrtDegree t) (wrapped s))
    (Host.gather gather_S100000_S1700000x1_S1700000_n_0_n_n_0_1_1 (invSqrtDegree t) (wrapped t))

/-- One layer of the reference. -/
def layer (X : Reals F S100000x128) (W : Reals F S128x128) (b : Reals F S128) (s t : Words F S1700000) : Reals F S100000x128 :=
  maximumf
    (addf
      (Host.scatterAdd scatter_S100000x128_S1700000x1_S1700000x128_1_0_0_1 featureZeros
        (broadcastInDim S1700000x1 ![0] bcast_S1700000_S1700000x1_0 t)
        (mulf
          (Host.gather gather_S100000x128_S1700000x1_S1700000x128_1_0_n_n_0_1_1128
            (Host.dotGeneral dot_S100000x128_S128x128_S100000x128_1_0_0_1_n_n none X W) (wrapped s))
          (broadcastInDim S1700000x128 ![0, 1] bcast_S1700000x1_S1700000x128_0_1
            (broadcastInDim S1700000x1 ![0] bcast_S1700000_S1700000x1_0 (edgeWeight s t)))))
      (broadcastInDim S100000x128 ![0, 1] bcast_S1x128_S100000x128_0_1 (broadcastInDim S1x128 ![1] bcast_S128_S1x128_1 b)))
    featureZeros

/-- A segment's count: the number of nodes assigned to it. -/
def count (x6 : Words F S100000) : Reals F S100000 :=
  Host.scatterAdd scatter_S100000_S100000x1_S100000_n_0_0_1 nodeZeros (broadcastInDim S100000x1 ![0] bcast_S100000_S100000x1_0 x6) nodeOnes

/-- The mean over the pooling segments, a count below one read as one. -/
def pooled (H : Reals F S100000x128) (x6 : Words F S100000) : Reals F S100000x128 :=
  Host.divf
    (Host.scatterAdd scatter_S100000x128_S100000x1_S100000x128_1_0_0_1 featureZeros (broadcastInDim S100000x1 ![0] bcast_S100000_S100000x1_0 x6) H)
    (broadcastInDim S100000x128 ![0, 1] bcast_S100000x1_S100000x128_0_1
      (broadcastInDim S100000x1 ![0] bcast_S100000_S100000x1_0 (maximumf (count x6) nodeOnes)))

/-- The decoded pairs: the positive ones, then the negative ones. -/
def pairs (x7 x8 : Words F S2x200000) : Words F S2x400000 :=
  concatenate S2x400000 1 [⟨S2x200000, x7⟩, ⟨S2x200000, x8⟩] concatenates_S2x200000_S2x200000_S2x400000_d1

/-- The pairs' first nodes. -/
def firsts (P : Words F S2x400000) : Words F S400000 :=
  shapeCast S400000 (extractStridedSlice S1x400000 ![0, 0] P slices_S2x400000_S1x400000_0_0) shapeCasts_S1x400000_S400000
/-- The pairs' second nodes. -/
def seconds (P : Words F S2x400000) : Words F S400000 :=
  shapeCast S400000 (extractStridedSlice S1x400000 ![1, 0] P slices_S2x400000_S1x400000_1_0) shapeCasts_S1x400000_S400000

/-- Node numbers of the decoded pairs as a gather reads them. -/
def wrappedPairs (v : Words F S400000) : Words F S400000x1 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32))) v)

/-- Every pair's value: the sum over the features of the product of its two nodes' pooled rows. -/
def decoded (Z : Reals F S100000x128) (x7 x8 : Words F S2x200000) : Reals F S400000 :=
  Host.reduceAdd
    (mulf (Host.gather gather_S100000x128_S400000x1_S400000x128_1_0_n_n_0_1_1128 Z (wrappedPairs (firsts (pairs x7 x8))))
      (Host.gather gather_S100000x128_S400000x1_S400000x128_1_0_n_n_0_1_1128 Z (wrappedPairs (seconds (pairs x7 x8)))))
    (constant S_ .f32 0x00000000#32) reducesTo_S400000x128_S400000_d1 h_S_

/-- The reference's result as a function of its nine arguments. -/
def result (x0 : Reals F S100000x128) (x1 : Reals F S128x128) (x2 : Reals F S128) (x3 : Reals F S128x128) (x4 : Reals F S128)
    (x5 : Words F S2x1600000) (x6 : Words F S100000) (x7 x8 : Words F S2x200000) : Reals F S400000 :=
  decoded (pooled (layer (layer x0 x1 x2 (sources x5) (targets x5)) x3 x4 (sources x5) (targets x5)) x6) x7 x8

end Cert.ReferenceIdeal.Stage

end
-- ==== Proof.RefRead.lean ====
/-
  What the reference's line of operations leaves in the result buffer is the composition of the stages: the two
  layers over the endpoint lists, the pooled mean, and the decoded pairs, as one function of the nine argument arrays'
  contents before the line.
-/
import proofs.«109980_j48129403519138_2_alg».proof.Proof.RefRun
import proofs.«109980_j48129403519138_2_alg».proof.Proof.RefStages

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
set_option maxHeartbeats 64400000 in
/-- The result buffer after the line, from any contents before it. -/
theorem result_eq (V : Valuation τ sig (Elt F)) :
    after ops V (Proc.devRef .tc main_v121)
      = Stage.result (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  after_results_simp
  rfl

end Cert.ReferenceIdeal.Line

end
-- ==== Proof.RegionMatmul0.lean ====
/- Region 0 of the program: each of the ten grid points multiplies a block of 10000 rows of a [100000,128]
   array by the whole [128,128] weight, accumulating into zero, scales row r of the product by entry r of a
   [100000,1] column, and writes the block back. Proved here: the region's output array after the whole grid, read
   at entry (p, q), is  (∑ k, A (p, k) · W (k, q)) · d (p, 0)  of the three arrays as the region finds them. First
   the body's result at an entry of a block (the product at an entry as a sum over the contracted axis, the column
   spread along the rows), then each window's block as rows 10000·t … 10000·t + 9999 of its array, what point t
   writes back as block t of ONE function of the arrays, the blocks' cover of the output, and the array. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

/-- The region's result as one function of the three arrays it reads: entry (r, q) is row r of the [100000,128] array
    against column q of the weight, scaled by entry r of the column. -/
def scaledProduct0 (x : S100000x128.Idx → EReal) (w : S128x128.Idx → EReal) (d : S100000x1.Idx → EReal) :
    S100000x128.Idx → EReal :=
  fun i => (∑ k : Fin 128, x (ix2 (n0 := 100000) (n1 := 128) (i 0) k) * w (ix2 (n0 := 128) (n1 := 128) k (i 1)))
    * d (ix2 (n0 := 100000) (n1 := 1) (i 0) (0 : Fin 1))

/-- At entry (p, q). -/
theorem scaledProduct0_apply (x : S100000x128.Idx → EReal) (w : S128x128.Idx → EReal) (d : S100000x1.Idx → EReal)
    (p : Fin 100000) (q : Fin 128) :
    scaledProduct0 x w d (ix2 p q) = (∑ k : Fin 128, x (ix2 p k) * w (ix2 k q)) * d (ix2 p (0 : Fin 1)) := rfl

namespace Matmul0

/-! ## The body's result at an entry of a block -/

/-- The product's left operand is read at the output's row and the contraction coordinate, -/
theorem dot_lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dot_lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- and the right operand at the contraction coordinate and the output's column. -/
theorem dot_rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
theorem dot_rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The [10000,128] × [128,128] product accumulated into zero, at entry (p, q): the sum over the contracted axis. -/
theorem matmul_zero_apply (x : Vec Ideal S10000x128 .f32) (w : Vec Ideal S128x128 .f32) (p : Fin 10000) (q : Fin 128) :
    matmul (φ₁ := .f32) (φ₂ := .f32) dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-- A [10000,1] column spread along the rows, at entry (p, q), is the column's entry p. -/
theorem column_broadcast_apply (d : Vec Ideal S10000x1 .f32) (p : Fin 10000) (q : Fin 128) :
    broadcastTo S10000x128 d broadcasts_S10000x1_S10000x128 (ix2 p q) = d (ix2 p (0 : Fin 1)) :=
  broadcastTo_apply d broadcasts_S10000x1_S10000x128 (ix2 p q) (ix2 p (0 : Fin 1)) fun a => by
    match a with
    | ⟨0, _⟩ => rfl
    | ⟨1, _⟩ => rfl

/-- The body's result at entry (p, q) of a block: row p of x against column q of w, scaled by the row's factor. -/
theorem matmulScale_apply (x : Vec Ideal S10000x128 .f32) (w : Vec Ideal S128x128 .f32) (d : Vec Ideal S10000x1 .f32)
    (p : Fin 10000) (q : Fin 128) :
    k0_pay1 (F := Ideal) x w d (ix2 p q) = (∑ k : Fin 128, x (ix2 p k) * w (ix2 k q)) * d (ix2 p (0 : Fin 1)) := by
  unfold k0_pay1
  rw [mulf_apply]
  simp only [shapeCast_self]
  rw [column_broadcast_apply, matmul_zero_apply]

/-! ## From the blocks to the array -/

theorem origin_eq : (![0, 0] : Fin 2 → Nat) = fun _ => 0 := funext fun a => by fin_cases a <;> rfl

/-- The printed index maps, decided over the grid: at point t the row-blocked windows are at block (t, 0), the weight
    at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the first window's block at point t is entry (10000·t + p, k) of its array. -/
theorem lhs_block_apply (V : (c : Dev nD) → (b : Ref sig .tc) → Buf (Elt Ideal) ((c : Thread nD τ).loc b)) (c : Dev nD) (t : Fin cfg0.N) (p : Fin 10000) (k : Fin 128)
    (r : Fin 100000) (hr : r.val = 10000 * t.val + p.val) :
    (iblk0 V c 0 t : Vec Ideal S10000x128 .f32) (ix2 p k) = (V c main_arg0 : Vec Ideal S100000x128 .f32) (ix2 r k) := by
  obtain ⟨e0, e1, -⟩ := block_index t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weight's window is the whole [128,128] array at every point. -/
theorem rhs_block_apply (V : (c : Dev nD) → (b : Ref sig .tc) → Buf (Elt Ideal) ((c : Thread nD τ).loc b)) (c : Dev nD) (t : Fin cfg0.N) (k : Fin 128) (q : Fin 128) :
    (iblk0 V c 1 t : Vec Ideal S128x128 .f32) (ix2 k q) = (V c main_arg1 : Vec Ideal S128x128 .f32) (ix2 k q) := by
  obtain ⟨-, -, e0, e1, -⟩ := block_index t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, 0) of the column window's block at point t is entry (10000·t + p, 0) of its array. -/
theorem scale_block_apply (V : (c : Dev nD) → (b : Ref sig .tc) → Buf (Elt Ideal) ((c : Thread nD τ).loc b)) (c : Dev nD) (t : Fin cfg0.N) (p : Fin 10000)
    (r : Fin 100000) (hr : r.val = 10000 * t.val + p.val) :
    (iblk0 V c 2 t : Vec Ideal S10000x1 .f32) (ix2 p (0 : Fin 1)) = (V c main_v15 : Vec Ideal S100000x1 .f32) (ix2 r (0 : Fin 1)) := by
  obtain ⟨-, -, -, -, e0, e1, -⟩ := block_index t
  show V c main_v15 (((cfg0.win 2).blk t).view.emb (ix2 p (0 : Fin 1))) = V c main_v15 (ix2 r (0 : Fin 1))
  refine congrArg (V c main_v15) (funext fun a => Fin.ext ?_)
  match a with
  | ⟨0, _⟩ => show win0_2.index t (0 : Fin 2) * 10000 + 1 * p.val = r.val; omega
  | ⟨1, _⟩ => show win0_2.index t (1 : Fin 2) * 1 + 1 * 0 = 0; omega

/-- Entry (p, q) of the output window's block at point t sits at entry (10000·t + p, q) of the output array. -/
theorem out_block_emb (t : Fin cfg0.N) (p : Fin 10000) (q : Fin 128)
    (r : Fin 100000) (hr : r.val = 10000 * t.val + p.val) :
    ((cfg0.win 3).blk t).view.emb (ix2 p q) = (ix2 r q : S100000x128.Idx) := by
  obtain ⟨-, -, -, -, -, -, e0, e1⟩ := block_index t
  refine funext fun a => Fin.ext ?_
  match a with
  | ⟨0, _⟩ => show win0_3.index t (0 : Fin 2) * 10000 + 1 * p.val = r.val; omega
  | ⟨1, _⟩ => show win0_3.index t (1 : Fin 2) * 128 + 1 * q.val = q.val; omega

/-- What point t writes back is block t of the scaled product of the arrays as the region finds them. -/
theorem flushed_eq_scaledProduct (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (scaledProduct0 (V c main_arg0) (V c main_arg1) (V c main_v15)) := by
  show (cfg0.win 3).cut (grid0.coords t) ((dat0 V c).after 3 t) = _
  rw [after0_3]
  unfold out0_3
  rw [View.canon_unit_zero origin_eq]
  simp only [View.ld_unit_zero (S := S10000x128) origin_eq, View.ld_unit_zero (S := S128x128) origin_eq,
    View.ld_unit_zero (S := S10000x1) origin_eq]
  funext j
  obtain ⟨p, q, rfl⟩ : ∃ (p : Fin 10000) (q : Fin 128), j = ix2 p q := ⟨j 0, j 1, eq_ix2 j⟩
  have ht : t.val < 10 := lt_of_lt_of_eq t.isLt N_0
  have hp : p.val < 10000 := p.isLt
  show k0_pay1 (F := Ideal) (iblk0 V c 0 t) (iblk0 V c 1 t) (iblk0 V c 2 t) (ix2 p q)
    = scaledProduct0 (V c main_arg0) (V c main_arg1) (V c main_v15) (((cfg0.win 3).blk t).view.emb (ix2 p q))
  rw [out_block_emb t p q ⟨10000 * t.val + p.val, by omega⟩ rfl, scaledProduct0_apply]
  refine (matmulScale_apply (iblk0 V c 0 t) (iblk0 V c 1 t) (iblk0 V c 2 t) p q).trans ?_
  rw [scale_block_apply V c t p ⟨10000 * t.val + p.val, by omega⟩ rfl]
  refine congrArg (· * _) (Finset.sum_congr rfl fun k _ => ?_)
  rw [lhs_block_apply V c t p k ⟨10000 * t.val + p.val, by omega⟩ rfl, rhs_block_apply V c t k q]

/-- An index of the output array is in point t's block iff each coordinate is in the block's range on its axis. -/
theorem mem_out_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v16).slice (win0_3.rect t)).set ↔ _
  rw [View.set_slice_whole, Rect.mem_set_unit]
  exact Iff.rfl

/-- The blocks tile the output: row r lies in the block of point r / 10000. -/
theorem out_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, -, -, e0, e1⟩ := block_index t
  refine ⟨t, flush0_3 t, ?_⟩
  rw [mem_out_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

end Matmul0

/-! ## The region's output array -/

/-- The output array after the whole grid is the scaled product of the arrays as the region finds them. -/
theorem region0_array (V : (c : Dev nD) → (b : Ref sig .tc) → Buf (Elt Ideal) ((c : Thread nD τ).loc b)) (c : Dev nD) :
    (Gen.dat0 (F := Ideal) V c).arrAt 3 cfg0.N = scaledProduct0 (V c main_arg0) (V c main_arg1) (V c main_v15) :=
  (Gen.dat0 (F := Ideal) V c).arrAt_eq_of_cover 3 (scaledProduct0 (V c main_arg0) (V c main_arg1) (V c main_v15))
    (fun t _ => Matmul0.flushed_eq_scaledProduct V c t) Matmul0.out_covered

/-- Entry (p, q) of the output array, with the three arrays the region reads named: whatever they are known to be. -/
theorem region0_apply_of (V : (c : Dev nD) → (b : Ref sig .tc) → Buf (Elt Ideal) ((c : Thread nD τ).loc b)) (c : Dev nD)
    (A : Vec Ideal S100000x128 .f32) (B : Vec Ideal S128x128 .f32) (D : Vec Ideal S100000x1 .f32)
    (hA : V c main_arg0 = A) (hB : V c main_arg1 = B) (hD : V c main_v15 = D) (p : Fin 100000) (q : Fin 128) :
    (Gen.dat0 (F := Ideal) V c).arrAt 3 cfg0.N (ix2 p q)
      = (∑ k : Fin 128, A (ix2 p k) * B (ix2 k q)) * D (ix2 p (0 : Fin 1)) := by
  subst hA hB hD
  rw [region0_array, scaledProduct0_apply]

/-- Entry (p, q) of the output array after the whole grid: row p of the first array against column q of the weight,
    scaled by entry p of the column. -/
theorem region0_apply (V : (c : Dev nD) → (b : Ref sig .tc) → Buf (Elt Ideal) ((c : Thread nD τ).loc b)) (c : Dev nD) (p : Fin 100000) (q : Fin 128) :
    (Gen.dat0 (F := Ideal) V c).arrAt 3 cfg0.N (ix2 p q)
      = @HMul.hMul EReal EReal EReal instHMul (∑ k : Fin 128, @HMul.hMul EReal EReal EReal instHMul (V c main_arg0 (ix2 p k)) (V c main_arg1 (ix2 k q))) (V c main_v15 (ix2 p (0 : Fin 1))) :=
  region0_apply_of V c _ _ _ rfl rfl rfl p q

end Cert.KernelIdeal.RegionValue

end
-- ==== Proof.RegionScale1.lean ====
/- The first bias-and-clamp region: its output array after the whole grid, entry by entry. Each of the ten grid points
   takes 10000 rows of a [100000, 128] array `x`, the matching 10000 entries of a column `d` of row factors, and the
   one bias row `b`, and writes back `max (x * d + b) 0` for those rows; the ten row blocks tile the array, so the
   array ends as that one function of `x`, `d`, `b`. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen

namespace Cert.KernelIdeal.RegionValue

/-- The offsets of a whole-buffer access, both zero. -/
theorem zeroOffsets1 : (![0, 0] : Fin 2 → Nat) = fun _ => 0 := funext fun a => by fin_cases a <;> rfl

/-- A column `[a, 1]` broadcast along the rows to `[a, b]` reads, at `(p, q)`, the column's entry of row `p`. -/
theorem colBroadcast1_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One entry of the body's result: the block entry scaled by its row's factor, the bias of its column added,
    clamped below at zero. -/
theorem scalePayload1_apply (x : Vec Ideal S10000x128 .f32) (d : Vec Ideal S10000x1 .f32) (b : Vec Ideal S1x128 .f32)
    (p : Fin 10000) (q : Fin 128) :
    k1_pay1 (F := Ideal) x d b (ix2 p q)
      = max (x (ix2 p q) * d (ix2 p (0 : Fin 1)) + b (ix2 (0 : Fin 1) q)) (0 : EReal) := by
  unfold k1_pay1
  rw [maximumf_apply, addf_apply, mulf_apply, broadcast_apply, shapeCast_self, shapeCast_self, shapeCast_self,
    colBroadcast1_apply, broadcastTo_1b_ab_apply]
  show max _ (FloatOps.ofBits (F := Ideal) .f32 0x00000000#32) = _
  rw [Ideal.ofBits_def, Ideal.ofBits_zero_f32]

variable (V : (c : Dev nD) → (b : Ref sig .tc) → Buf (Elt Ideal) ((c : Thread nD τ).loc b))

/-- An array scaled row by row, a bias row added, clamped below at zero: entry `(r, q)` is
    `max (x (r, q) * d (r, 0) + b (0, q)) 0`. -/
def scaleBiasClamp1 (x : S100000x128.Idx → EReal) (d : S100000x1.Idx → EReal) (b : S1x128.Idx → EReal) :
    S100000x128.Idx → EReal := fun i =>
  max (x i * d (ix2 (n0 := 100000) (i 0) (0 : Fin 1)) + b (ix2 (n1 := 128) (0 : Fin 1) (i 1))) 0

/-- The whole output as that function of the three arrays the region finds. -/
abbrev scaledBiased1 (c : Dev nD) : S100000x128.Idx → EReal :=
  scaleBiasClamp1 (V c main_v26) (V c main_v15) (V c main_v27)

/-- The printed index maps over the ten grid points: the two row-blocked inputs and the output sit at row block `t`,
    column block 0; the bias row is always its one block. -/
theorem blockIndices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is rows `10000 t … 10000 t + 9999` of `scaledBiased1`. -/
theorem flushed1_eq (c : Dev nD) (t : Fin cfg1.N) :
    (dat1 (F := Ideal) V c).flushed 3 t = ((cfg1.win 3).blk t).view.read (Elt Ideal) (scaledBiased1 V c) := by
  show (cfg1.win 3).cut (grid1.coords t) ((dat1 V c).after 3 t) = _
  rw [after1_3]
  unfold out1_3
  rw [View.canon_unit_zero zeroOffsets1]
  simp only [View.ld_unit_zero (S := S10000x128) zeroOffsets1, View.ld_unit_zero (S := S10000x1) zeroOffsets1,
    View.ld_unit_zero (S := S1x128) zeroOffsets1]
  obtain ⟨e00, e01, e10, e11, e20, e21, e30, e31⟩ := blockIndices1 t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
    = scaledBiased1 V c (((cfg1.win 3).blk t).view.emb (ix2 p q))
  rw [scalePayload1_apply]
  have hx : iblk1 V c 0 t (ix2 p q)
      = (V c main_v26 : S100000x128.Idx → EReal) (((cfg1.win 3).blk t).view.emb (ix2 p q)) := by
    show V c main_v26 (((cfg1.win 0).blk t).view.emb (ix2 p q)) = _
    refine congrArg (V c main_v26) (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 128 + 1 * q.val = win1_3.index t (1 : Fin 2) * 128 + 1 * q.val
      omega
  have hd : iblk1 V c 1 t (ix2 p (0 : Fin 1))
      = (V c main_v15 : S100000x1.Idx → EReal)
          (ix2 (n0 := 100000) (((cfg1.win 3).blk t).view.emb (ix2 p q) 0) (0 : Fin 1)) := by
    show V c main_v15 (((cfg1.win 1).blk t).view.emb (ix2 p (0 : Fin 1))) = _
    refine congrArg (V c main_v15) (funext fun a => Fin.ext ?_)
    match a with
    | ⟨0, _⟩ =>
      show win1_1.index t (0 : Fin 2) * 10000 + 1 * p.val = win1_3.index t (0 : Fin 2) * 10000 + 1 * p.val
      omega
    | ⟨1, _⟩ =>
      show win1_1.index t (1 : Fin 2) * 1 + 1 * 0 = 0
      omega
  have hb : iblk1 V c 2 t (ix2 (0 : Fin 1) q)
      = (V c main_v27 : S1x128.Idx → EReal)
          (ix2 (n1 := 128) (0 : Fin 1) (((cfg1.win 3).blk t).view.emb (ix2 p q) 1)) := by
    show V c main_v27 (((cfg1.win 2).blk t).view.emb (ix2 (0 : Fin 1) q)) = _
    refine congrArg (V c main_v27) (funext fun a => Fin.ext ?_)
    match a with
    | ⟨0, _⟩ =>
      show win1_2.index t (0 : Fin 2) * 1 + 1 * 0 = 0
      omega
    | ⟨1, _⟩ =>
      show win1_2.index t (1 : Fin 2) * 128 + 1 * q.val = win1_3.index t (1 : Fin 2) * 128 + 1 * q.val
      omega
  rw [hx, hd, hb]
  rfl

/-- An index of the output array lies in point `t`'s block iff, on each axis, its coordinate is within the block's
    range there. -/
theorem mem_rowBlock1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v28).slice (win1_3.rect t)).set ↔ _
  rw [View.set_slice_whole, Rect.mem_set_unit]
  exact Iff.rfl

/-- Every row `r` of the output is written back by the grid point `r / 10000`. -/
theorem covered1 (i : S100000x128.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  obtain ⟨t, ht⟩ : ∃ t : Fin cfg1.N, t.val = (i 0).val / 10000 := ⟨⟨(i 0).val / 10000, by rw [hN]; omega⟩, rfl⟩
  obtain ⟨-, -, -, -, -, -, e30, e31⟩ := blockIndices1 t
  refine ⟨t, flush1_3 t, ?_⟩
  rw [mem_rowBlock1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- After the whole grid the output array is `scaledBiased1`: each point writes its rows of it, and the points' blocks
    cover every row. -/
theorem region1_array (c : Dev nD) :
    (dat1 (F := Ideal) V c).arrAt 3 cfg1.N = scaleBiasClamp1 (V c main_v26) (V c main_v15) (V c main_v27) :=
  (dat1 (F := Ideal) V c).arrAt_eq_of_cover 3 (scaledBiased1 V c) (fun t _ => flushed1_eq V c t) covered1

/-- The output of region 1 at row `p`, column `q`. -/
theorem region1_apply (c : Dev nD) (p : Fin 100000) (q : Fin 128) :
    (Gen.dat1 (F := Ideal) V c).arrAt 3 cfg1.N (ix2 p q)
      = max (α := EReal) (HAdd.hAdd (α := EReal) (β := EReal)
          (HMul.hMul (α := EReal) (β := EReal) (V c main_v26 (ix2 p q)) (V c main_v15 (ix2 p (0 : Fin 1))))
          (V c main_v27 (ix2 (0 : Fin 1) q))) 0 := by
  rw [region1_array]
  rfl

end Cert.KernelIdeal.RegionValue

end
-- ==== Proof.RegionMatmul2.lean ====
/- Region 2 of the program: each of the ten grid points multiplies a block of 10000 rows of a [100000,128]
   array by the whole [128,128] weight, accumulating into zero, scales row r of the product by entry r of a
   [100000,1] column, and writes the block back. Proved here: the region's output array after the whole grid, read
   at entry (p, q), is  (∑ k, A (p, k) · W (k, q)) · d (p, 0)  of the three arrays as the region finds them. First
   the body's result at an entry of a block (the product at an entry as a sum over the contracted axis, the column
   spread along the rows), then each window's block as rows 10000·t … 10000·t + 9999 of its array, what point t
   writes back as block t of ONE function of the arrays, the blocks' cover of the output, and the array. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

/-- The region's result as one function of the three arrays it reads: entry (r, q) is row r of the [100000,128] array
    against column q of the weight, scaled by entry r of the column. -/
def scaledProduct2 (x : S100000x128.Idx → EReal) (w : S128x128.Idx → EReal) (d : S100000x1.Idx → EReal) :
    S100000x128.Idx → EReal :=
  fun i => (∑ k : Fin 128, x (ix2 (n0 := 100000) (n1 := 128) (i 0) k) * w (ix2 (n0 := 128) (n1 := 128) k (i 1)))
    * d (ix2 (n0 := 100000) (n1 := 1) (i 0) (0 : Fin 1))

/-- At entry (p, q). -/
theorem scaledProduct2_apply (x : S100000x128.Idx → EReal) (w : S128x128.Idx → EReal) (d : S100000x1.Idx → EReal)
    (p : Fin 100000) (q : Fin 128) :
    scaledProduct2 x w d (ix2 p q) = (∑ k : Fin 128, x (ix2 p k) * w (ix2 k q)) * d (ix2 p (0 : Fin 1)) := rfl

namespace Matmul2

/-! ## The body's result at an entry of a block -/

/-- The product's left operand is read at the output's row and the contraction coordinate, -/
theorem dot_lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dot_lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- and the right operand at the contraction coordinate and the output's column. -/
theorem dot_rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
theorem dot_rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The [10000,128] × [128,128] product accumulated into zero, at entry (p, q): the sum over the contracted axis. -/
theorem matmul_zero_apply (x : Vec Ideal S10000x128 .f32) (w : Vec Ideal S128x128 .f32) (p : Fin 10000) (q : Fin 128) :
    matmul (φ₁ := .f32) (φ₂ := .f32) dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-- A [10000,1] column spread along the rows, at entry (p, q), is the column's entry p. -/
theorem column_broadcast_apply (d : Vec Ideal S10000x1 .f32) (p : Fin 10000) (q : Fin 128) :
    broadcastTo S10000x128 d broadcasts_S10000x1_S10000x128 (ix2 p q) = d (ix2 p (0 : Fin 1)) :=
  broadcastTo_apply d broadcasts_S10000x1_S10000x128 (ix2 p q) (ix2 p (0 : Fin 1)) fun a => by
    match a with
    | ⟨0, _⟩ => rfl
    | ⟨1, _⟩ => rfl

/-- The body's result at entry (p, q) of a block: row p of x against column q of w, scaled by the row's factor. -/
theorem matmulScale_apply (x : Vec Ideal S10000x128 .f32) (w : Vec Ideal S128x128 .f32) (d : Vec Ideal S10000x1 .f32)
    (p : Fin 10000) (q : Fin 128) :
    k2_pay1 (F := Ideal) x w d (ix2 p q) = (∑ k : Fin 128, x (ix2 p k) * w (ix2 k q)) * d (ix2 p (0 : Fin 1)) := by
  unfold k2_pay1
  rw [mulf_apply]
  simp only [shapeCast_self]
  rw [column_broadcast_apply, matmul_zero_apply]

/-! ## From the blocks to the array -/

theorem origin_eq : (![0, 0] : Fin 2 → Nat) = fun _ => 0 := funext fun a => by fin_cases a <;> rfl

/-- The printed index maps, decided over the grid: at point t the row-blocked windows are at block (t, 0), the weight
    at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, k) of the first window's block at point t is entry (10000·t + p, k) of its array. -/
theorem lhs_block_apply (V : (c : Dev nD) → (b : Ref sig .tc) → Buf (Elt Ideal) ((c : Thread nD τ).loc b)) (c : Dev nD) (t : Fin cfg2.N) (p : Fin 10000) (k : Fin 128)
    (r : Fin 100000) (hr : r.val = 10000 * t.val + p.val) :
    (iblk2 V c 0 t : Vec Ideal S10000x128 .f32) (ix2 p k) = (V c main_v28 : Vec Ideal S100000x128 .f32) (ix2 r k) := by
  obtain ⟨e0, e1, -⟩ := block_index t
  show V c main_v28 (((cfg2.win 0).blk t).view.emb (ix2 p k)) = V c main_v28 (ix2 r k)
  refine congrArg (V c main_v28) (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- The weight's window is the whole [128,128] array at every point. -/
theorem rhs_block_apply (V : (c : Dev nD) → (b : Ref sig .tc) → Buf (Elt Ideal) ((c : Thread nD τ).loc b)) (c : Dev nD) (t : Fin cfg2.N) (k : Fin 128) (q : Fin 128) :
    (iblk2 V c 1 t : Vec Ideal S128x128 .f32) (ix2 k q) = (V c main_arg3 : Vec Ideal S128x128 .f32) (ix2 k q) := by
  obtain ⟨-, -, e0, e1, -⟩ := block_index t
  show V c main_arg3 (((cfg2.win 1).blk t).view.emb (ix2 k q)) = V c main_arg3 (ix2 k q)
  refine congrArg (V c main_arg3) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Entry (p, 0) of the column window's block at point t is entry (10000·t + p, 0) of its array. -/
theorem scale_block_apply (V : (c : Dev nD) → (b : Ref sig .tc) → Buf (Elt Ideal) ((c : Thread nD τ).loc b)) (c : Dev nD) (t : Fin cfg2.N) (p : Fin 10000)
    (r : Fin 100000) (hr : r.val = 10000 * t.val + p.val) :
    (iblk2 V c 2 t : Vec Ideal S10000x1 .f32) (ix2 p (0 : Fin 1)) = (V c main_v15 : Vec Ideal S100000x1 .f32) (ix2 r (0 : Fin 1)) := by
  obtain ⟨-, -, -, -, e0, e1, -⟩ := block_index t
  show V c main_v15 (((cfg2.win 2).blk t).view.emb (ix2 p (0 : Fin 1))) = V c main_v15 (ix2 r (0 : Fin 1))
  refine congrArg (V c main_v15) (funext fun a => Fin.ext ?_)
  match a with
  | ⟨0, _⟩ => show win2_2.index t (0 : Fin 2) * 10000 + 1 * p.val = r.val; omega
  | ⟨1, _⟩ => show win2_2.index t (1 : Fin 2) * 1 + 1 * 0 = 0; omega

/-- Entry (p, q) of the output window's block at point t sits at entry (10000·t + p, q) of the output array. -/
theorem out_block_emb (t : Fin cfg2.N) (p : Fin 10000) (q : Fin 128)
    (r : Fin 100000) (hr : r.val = 10000 * t.val + p.val) :
    ((cfg2.win 3).blk t).view.emb (ix2 p q) = (ix2 r q : S100000x128.Idx) := by
  obtain ⟨-, -, -, -, -, -, e0, e1⟩ := block_index t
  refine funext fun a => Fin.ext ?_
  match a with
  | ⟨0, _⟩ => show win2_3.index t (0 : Fin 2) * 10000 + 1 * p.val = r.val; omega
  | ⟨1, _⟩ => show win2_3.index t (1 : Fin 2) * 128 + 1 * q.val = q.val; omega

/-- What point t writes back is block t of the scaled product of the arrays as the region finds them. -/
theorem flushed_eq_scaledProduct (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (scaledProduct2 (V c main_v28) (V c main_arg3) (V c main_v15)) := by
  show (cfg2.win 3).cut (grid2.coords t) ((dat2 V c).after 3 t) = _
  rw [after2_3]
  unfold out2_3
  rw [View.canon_unit_zero origin_eq]
  simp only [View.ld_unit_zero (S := S10000x128) origin_eq, View.ld_unit_zero (S := S128x128) origin_eq,
    View.ld_unit_zero (S := S10000x1) origin_eq]
  funext j
  obtain ⟨p, q, rfl⟩ : ∃ (p : Fin 10000) (q : Fin 128), j = ix2 p q := ⟨j 0, j 1, eq_ix2 j⟩
  have ht : t.val < 10 := lt_of_lt_of_eq t.isLt N_2
  have hp : p.val < 10000 := p.isLt
  show k2_pay1 (F := Ideal) (iblk2 V c 0 t) (iblk2 V c 1 t) (iblk2 V c 2 t) (ix2 p q)
    = scaledProduct2 (V c main_v28) (V c main_arg3) (V c main_v15) (((cfg2.win 3).blk t).view.emb (ix2 p q))
  rw [out_block_emb t p q ⟨10000 * t.val + p.val, by omega⟩ rfl, scaledProduct2_apply]
  refine (matmulScale_apply (iblk2 V c 0 t) (iblk2 V c 1 t) (iblk2 V c 2 t) p q).trans ?_
  rw [scale_block_apply V c t p ⟨10000 * t.val + p.val, by omega⟩ rfl]
  refine congrArg (· * _) (Finset.sum_congr rfl fun k _ => ?_)
  rw [lhs_block_apply V c t p k ⟨10000 * t.val + p.val, by omega⟩ rfl, rhs_block_apply V c t k q]

/-- An index of the output array is in point t's block iff each coordinate is in the block's range on its axis. -/
theorem mem_out_block (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v29).slice (win2_3.rect t)).set ↔ _
  rw [View.set_slice_whole, Rect.mem_set_unit]
  exact Iff.rfl

/-- The blocks tile the output: row r lies in the block of point r / 10000. -/
theorem out_covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, e0, e1⟩ := block_index t
  refine ⟨t, flush2_3 t, ?_⟩
  rw [mem_out_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

end Matmul2

/-! ## The region's output array -/

/-- The output array after the whole grid is the scaled product of the arrays as the region finds them. -/
theorem region2_array (V : (c : Dev nD) → (b : Ref sig .tc) → Buf (Elt Ideal) ((c : Thread nD τ).loc b)) (c : Dev nD) :
    (Gen.dat2 (F := Ideal) V c).arrAt 3 cfg2.N = scaledProduct2 (V c main_v28) (V c main_arg3) (V c main_v15) :=
  (Gen.dat2 (F := Ideal) V c).arrAt_eq_of_cover 3 (scaledProduct2 (V c main_v28) (V c main_arg3) (V c main_v15))
    (fun t _ => Matmul2.flushed_eq_scaledProduct V c t) Matmul2.out_covered

/-- Entry (p, q) of the output array, with the three arrays the region reads named: whatever they are known to be. -/
theorem region2_apply_of (V : (c : Dev nD) → (b : Ref sig .tc) → Buf (Elt Ideal) ((c : Thread nD τ).loc b)) (c : Dev nD)
    (A : Vec Ideal S100000x128 .f32) (B : Vec Ideal S128x128 .f32) (D : Vec Ideal S100000x1 .f32)
    (hA : V c main_v28 = A) (hB : V c main_arg3 = B) (hD : V c main_v15 = D) (p : Fin 100000) (q : Fin 128) :
    (Gen.dat2 (F := Ideal) V c).arrAt 3 cfg2.N (ix2 p q)
      = (∑ k : Fin 128, A (ix2 p k) * B (ix2 k q)) * D (ix2 p (0 : Fin 1)) := by
  subst hA hB hD
  rw [region2_array, scaledProduct2_apply]

/-- Entry (p, q) of the output array after the whole grid: row p of the first array against column q of the weight,
    scaled by entry p of the column. -/
theorem region2_apply (V : (c : Dev nD) → (b : Ref sig .tc) → Buf (Elt Ideal) ((c : Thread nD τ).loc b)) (c : Dev nD) (p : Fin 100000) (q : Fin 128) :
    (Gen.dat2 (F := Ideal) V c).arrAt 3 cfg2.N (ix2 p q)
      = @HMul.hMul EReal EReal EReal instHMul (∑ k : Fin 128, @HMul.hMul EReal EReal EReal instHMul (V c main_v28 (ix2 p k)) (V c main_arg3 (ix2 k q))) (V c main_v15 (ix2 p (0 : Fin 1))) :=
  region2_apply_of V c _ _ _ rfl rfl rfl p q

end Cert.KernelIdeal.RegionValue

end
-- ==== Proof.ChainA.lean ====
/-
  The idealized kernel's buffers, boundary by boundary: from the launch to the end of the second matrix product.

  Before the first region the host computes, from the edge list alone, the sources and the targets with a self loop
  per node and the inverse square root degree, kept as a column.  Region 0 multiplies the node features by the first
  weight matrix and scales row p by the column's entry p.  The host then gathers for every edge the row of its source
  and sums the rows onto the targets.  Region 1 scales row p of that sum by the column's entry p again, adds the bias
  and takes the maximum with zero.  Region 2 is region 0 over the first layer's output and the second weight matrix.
  Every buffer named here is written once, so a later stretch or region leaves it as it was.
-/
import proofs.«109980_j48129403519138_2_alg».proof.Proof.Gen.KernelIdeal.Frame
import proofs.«109980_j48129403519138_2_alg».proof.Proof.RegionMatmul0
import proofs.«109980_j48129403519138_2_alg».proof.Proof.RegionScale1
import proofs.«109980_j48129403519138_2_alg».proof.Proof.RegionMatmul2
import proofs.«109980_j48129403519138_2_alg».proof.Proof.RefStages

set_option maxRecDepth 16384
set_option maxHeartbeats 4000000

noncomputable section

namespace Cert.KernelIdeal.Chain

open Cert.KernelIdeal Cert.KernelIdeal.Gen Cert.KernelIdeal.RegionValue
open Idealize.ShloMosaic Idealize.ShloMosaic.TcCoe Idealize.SL.Sem Idealize.ShloMosaic.StableHlo
open Cert.ReferenceIdeal.Stage (Words Reals sources targets wrapped invSqrtDegree featureZeros)

/-! ## The inverse square root degree as a column, at any float instance

The host lines before the first region do not depend on how floats are read: the degree by an accumulating scatter of
ones onto the targets, the comparison with zero, the inverse square root, the selection between the two in the
outlined function, and the reshape of the vector into a column. -/
section AnyInstance
variable {F : FTy → Type} [FloatOps F]
theorem W3_v15_generic (m : (ℓ : Loc nD τ sig) → Buf (Elt F) ℓ) (ρ : Dev nD → PrngReg) (c : Dev nD) :
    W3 m ρ c (Proc.devRef .tc main_v15)
      = shapeCast S100000x1 (invSqrtDegree (F := F) (targets (F := F) (m ((c : Thread nD τ).loc main_arg5)))) shapeCasts_S100000_S100000x1 := by
  dsimp only [W3, W2, W1, hostOps0, hostOps0_1, hostOps0_2]; after_results; all_goals rfl
end AnyInstance

variable (m : (ℓ : Loc nD τ sig) → Buf (Elt Ideal) ℓ) (ρ : Dev nD → PrngReg) (c : Dev nD)

/-! ## The launch contents of the arguments, typed -/
/-- Argument 0 as launched. -/
abbrev arg0 : Reals Ideal Cert.ReferenceIdeal.S100000x128 := m ((c : Thread nD τ).loc main_arg0)
/-- Argument 1 as launched. -/
abbrev arg1 : Reals Ideal Cert.ReferenceIdeal.S128x128 := m ((c : Thread nD τ).loc main_arg1)
/-- Argument 2 as launched. -/
abbrev arg2 : Reals Ideal Cert.ReferenceIdeal.S128 := m ((c : Thread nD τ).loc main_arg2)
/-- Argument 3 as launched. -/
abbrev arg3 : Reals Ideal Cert.ReferenceIdeal.S128x128 := m ((c : Thread nD τ).loc main_arg3)
/-- Argument 4 as launched. -/
abbrev arg4 : Reals Ideal Cert.ReferenceIdeal.S128 := m ((c : Thread nD τ).loc main_arg4)
/-- Argument 5 as launched. -/
abbrev arg5 : Words Ideal Cert.ReferenceIdeal.S2x1600000 := m ((c : Thread nD τ).loc main_arg5)
/-- Argument 6 as launched. -/
abbrev arg6 : Words Ideal Cert.ReferenceIdeal.S100000 := m ((c : Thread nD τ).loc main_arg6)
/-- Argument 7 as launched. -/
abbrev arg7 : Words Ideal Cert.ReferenceIdeal.S2x200000 := m ((c : Thread nD τ).loc main_arg7)
/-- Argument 8 as launched. -/
abbrev arg8 : Words Ideal Cert.ReferenceIdeal.S2x200000 := m ((c : Thread nD τ).loc main_arg8)

/-- The inverse square root degree as a column. -/
def degreeColumn (x5 : Words Ideal Cert.ReferenceIdeal.S2x1600000) : S100000x1.Idx → EReal :=
  shapeCast S100000x1 (invSqrtDegree (F := Ideal) (targets (F := Ideal) x5)) shapeCasts_S100000_S100000x1

/-- A bias as a row. -/
def biasRow (b : Reals Ideal Cert.ReferenceIdeal.S128) : S1x128.Idx → EReal := shapeCast S1x128 b shapeCasts_S128_S1x128

/-- The rows of an array gathered along the sources and summed onto the targets. -/
def spread (A : S100000x128.Idx → EReal) (x5 : Words Ideal Cert.ReferenceIdeal.S2x1600000) : S100000x128.Idx → EReal :=
  Host.scatterAdd (F := Ideal) (φ := .f32) scatter_S100000x128_S1700000x1_S1700000x128_1_0_0_1 (featureZeros (F := Ideal))
    (broadcastInDim S1700000x1 ![0] bcast_S1700000_S1700000x1_0 (targets (F := Ideal) x5))
    (Host.gather gather_S100000x128_S1700000x1_S1700000x128_1_0_n_n_0_1_1128 A (wrapped (F := Ideal) (sources (F := Ideal) x5)))

/-! ## Region 0's entry -/
theorem W3_arg0 : W3 m ρ c (Proc.devRef .tc main_arg0) = arg0 m c := by
  dsimp only [W3, W2, W1, hostOps0, hostOps0_1, hostOps0_2]; after_results; all_goals rfl
theorem W3_arg1 : W3 m ρ c (Proc.devRef .tc main_arg1) = arg1 m c := by
  dsimp only [W3, W2, W1, hostOps0, hostOps0_1, hostOps0_2]; after_results; all_goals rfl
theorem W3_arg2 : W3 m ρ c (Proc.devRef .tc main_arg2) = arg2 m c := by
  dsimp only [W3, W2, W1, hostOps0, hostOps0_1, hostOps0_2]; after_results; all_goals rfl
theorem W3_arg3 : W3 m ρ c (Proc.devRef .tc main_arg3) = arg3 m c := by
  dsimp only [W3, W2, W1, hostOps0, hostOps0_1, hostOps0_2]; after_results; all_goals rfl
theorem W3_arg4 : W3 m ρ c (Proc.devRef .tc main_arg4) = arg4 m c := by
  dsimp only [W3, W2, W1, hostOps0, hostOps0_1, hostOps0_2]; after_results; all_goals rfl
theorem W3_arg5 : W3 m ρ c (Proc.devRef .tc main_arg5) = arg5 m c := by
  dsimp only [W3, W2, W1, hostOps0, hostOps0_1, hostOps0_2]; after_results; all_goals rfl
theorem W3_arg6 : W3 m ρ c (Proc.devRef .tc main_arg6) = arg6 m c := by
  dsimp only [W3, W2, W1, hostOps0, hostOps0_1, hostOps0_2]; after_results; all_goals rfl
theorem W3_arg7 : W3 m ρ c (Proc.devRef .tc main_arg7) = arg7 m c := by
  dsimp only [W3, W2, W1, hostOps0, hostOps0_1, hostOps0_2]; after_results; all_goals rfl
theorem W3_arg8 : W3 m ρ c (Proc.devRef .tc main_arg8) = arg8 m c := by
  dsimp only [W3, W2, W1, hostOps0, hostOps0_1, hostOps0_2]; after_results; all_goals rfl
theorem W3_v3 : W3 m ρ c (Proc.devRef .tc main_v3) = sources (F := Ideal) (arg5 m c) := by
  dsimp only [W3, W2, W1, hostOps0, hostOps0_1, hostOps0_2]; after_results; all_goals rfl
theorem W3_v6 : W3 m ρ c (Proc.devRef .tc main_v6) = targets (F := Ideal) (arg5 m c) := by
  dsimp only [W3, W2, W1, hostOps0, hostOps0_1, hostOps0_2]; after_results; all_goals rfl
theorem W3_v15 : W3 m ρ c (Proc.devRef .tc main_v15) = degreeColumn (arg5 m c) :=
  W3_v15_generic (F := Ideal) m ρ c

/-! ## Region 0's exit -/

/-- A buffer that is not one of region 0's four arrays. -/
theorem W4_keep (b : Ref sig .tc) (hb : ∀ w, Pipeline.arrRef spec0 w ≠ b) : W4 m ρ c (Proc.devRef .tc b) = W3 m ρ c (Proc.devRef .tc b) :=
  W4_of_ne m ρ c b hb
theorem W4_v15 : W4 m ρ c (Proc.devRef .tc main_v15) = degreeColumn (arg5 m c) :=
  ((W4_arr m ρ c 2).trans (((dat0 (V3 m ρ) c).arrAt_in 2 rfl _).trans (A_eq0 (V3 m ρ) c 2))).trans (W3_v15 m ρ c)
theorem W4_v16 : W4 m ρ c (Proc.devRef .tc main_v16) = scaledProduct0 (arg0 m c) (arg1 m c) (degreeColumn (arg5 m c)) := by
  refine ((W4_arr m ρ c 3).trans (region0_array (V3 m ρ) c)).trans ?_
  show scaledProduct0 (W3 m ρ c (Proc.devRef .tc main_arg0)) (W3 m ρ c (Proc.devRef .tc main_arg1)) (W3 m ρ c (Proc.devRef .tc main_v15)) = _
  rw [W3_arg0, W3_arg1, W3_v15]
theorem W4_v3 : W4 m ρ c (Proc.devRef .tc main_v3) = sources (F := Ideal) (arg5 m c) := (W4_keep m ρ c main_v3 (by decide)).trans (W3_v3 m ρ c)
theorem W4_v6 : W4 m ρ c (Proc.devRef .tc main_v6) = targets (F := Ideal) (arg5 m c) := (W4_keep m ρ c main_v6 (by decide)).trans (W3_v6 m ρ c)
theorem W4_arg2 : W4 m ρ c (Proc.devRef .tc main_arg2) = arg2 m c := (W4_keep m ρ c main_arg2 (by decide)).trans (W3_arg2 m ρ c)
theorem W4_arg3 : W4 m ρ c (Proc.devRef .tc main_arg3) = arg3 m c := (W4_keep m ρ c main_arg3 (by decide)).trans (W3_arg3 m ρ c)
theorem W4_arg4 : W4 m ρ c (Proc.devRef .tc main_arg4) = arg4 m c := (W4_keep m ρ c main_arg4 (by decide)).trans (W3_arg4 m ρ c)
theorem W4_arg6 : W4 m ρ c (Proc.devRef .tc main_arg6) = arg6 m c := (W4_keep m ρ c main_arg6 (by decide)).trans (W3_arg6 m ρ c)
theorem W4_arg7 : W4 m ρ c (Proc.devRef .tc main_arg7) = arg7 m c := (W4_keep m ρ c main_arg7 (by decide)).trans (W3_arg7 m ρ c)
theorem W4_arg8 : W4 m ρ c (Proc.devRef .tc main_arg8) = arg8 m c := (W4_keep m ρ c main_arg8 (by decide)).trans (W3_arg8 m ρ c)

/-! ## Region 1's entry: the first gather and scatter, the first bias as a row -/

theorem W5_v26 : W5 m ρ c (Proc.devRef .tc main_v26) = spread (scaledProduct0 (arg0 m c) (arg1 m c) (degreeColumn (arg5 m c))) (arg5 m c) := by
  have h : W5 m ρ c (Proc.devRef .tc main_v26)
      = Host.scatterAdd (F := Ideal) (φ := .f32) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W4 m ρ c (Proc.devRef .tc main_v6)))
          (Host.gather gather_S100000x128_S1700000x1_S1700000x128_1_0_n_n_0_1_1128 (W4 m ρ c (Proc.devRef .tc main_v16))
            (broadcastInDim S1700000x1 ![0] bcast_S1700000_S1700000x1_0
              (select (cmpi .slt (W4 m ρ c (Proc.devRef .tc main_v3)) (broadcastInDim S1700000 ![] bcast_S_S1700000 (constantI S_ 32 0#32)))
                (addi (W4 m ρ c (Proc.devRef .tc main_v3)) (broadcastInDim S1700000 ![] bcast_S_S1700000 (constantI S_ 32 100000#32)))
                (W4 m ρ c (Proc.devRef .tc main_v3))))) := by
    dsimp only [W5, hostOps1]; after_results; all_goals rfl
  rw [h, W4_v6, W4_v16, W4_v3]
  rfl
theorem W5_v27 : W5 m ρ c (Proc.devRef .tc main_v27) = biasRow (arg2 m c) := by
  have h : W5 m ρ c (Proc.devRef .tc main_v27) = shapeCast S1x128 (W4 m ρ c (Proc.devRef .tc main_arg2)) shapeCasts_S128_S1x128 := by
    dsimp only [W5, hostOps1]; after_results; all_goals rfl
  rw [h, W4_arg2]
  rfl
/-- A buffer the stretch before region 1 does not write. -/
theorem W5_v15 : W5 m ρ c (Proc.devRef .tc main_v15) = degreeColumn (arg5 m c) := by
  have h : W5 m ρ c (Proc.devRef .tc main_v15) = W4 m ρ c (Proc.devRef .tc main_v15) := by dsimp only [W5, hostOps1]; after_results; all_goals rfl
  rw [h, W4_v15]
theorem W5_v3 : W5 m ρ c (Proc.devRef .tc main_v3) = sources (F := Ideal) (arg5 m c) := by
  have h : W5 m ρ c (Proc.devRef .tc main_v3) = W4 m ρ c (Proc.devRef .tc main_v3) := by dsimp only [W5, hostOps1]; after_results; all_goals rfl
  rw [h, W4_v3]
theorem W5_v6 : W5 m ρ c (Proc.devRef .tc main_v6) = targets (F := Ideal) (arg5 m c) := by
  have h : W5 m ρ c (Proc.devRef .tc main_v6) = W4 m ρ c (Proc.devRef .tc main_v6) := by dsimp only [W5, hostOps1]; after_results; all_goals rfl
  rw [h, W4_v6]
theorem W5_arg3 : W5 m ρ c (Proc.devRef .tc main_arg3) = arg3 m c := by
  have h : W5 m ρ c (Proc.devRef .tc main_arg3) = W4 m ρ c (Proc.devRef .tc main_arg3) := by dsimp only [W5, hostOps1]; after_results; all_goals rfl
  rw [h, W4_arg3]
theorem W5_arg4 : W5 m ρ c (Proc.devRef .tc main_arg4) = arg4 m c := by
  have h : W5 m ρ c (Proc.devRef .tc main_arg4) = W4 m ρ c (Proc.devRef .tc main_arg4) := by dsimp only [W5, hostOps1]; after_results; all_goals rfl
  rw [h, W4_arg4]
theorem W5_arg6 : W5 m ρ c (Proc.devRef .tc main_arg6) = arg6 m c := by
  have h : W5 m ρ c (Proc.devRef .tc main_arg6) = W4 m ρ c (Proc.devRef .tc main_arg6) := by dsimp only [W5, hostOps1]; after_results; all_goals rfl
  rw [h, W4_arg6]
theorem W5_arg7 : W5 m ρ c (Proc.devRef .tc main_arg7) = arg7 m c := by
  have h : W5 m ρ c (Proc.devRef .tc main_arg7) = W4 m ρ c (Proc.devRef .tc main_arg7) := by dsimp only [W5, hostOps1]; after_results; all_goals rfl
  rw [h, W4_arg7]
theorem W5_arg8 : W5 m ρ c (Proc.devRef .tc main_arg8) = arg8 m c := by
  have h : W5 m ρ c (Proc.devRef .tc main_arg8) = W4 m ρ c (Proc.devRef .tc main_arg8) := by dsimp only [W5, hostOps1]; after_results; all_goals rfl
  rw [h, W4_arg8]

/-- The first layer as the kernel computes it. -/
def firstLayer (x0 : Reals Ideal Cert.ReferenceIdeal.S100000x128) (x1 : Reals Ideal Cert.ReferenceIdeal.S128x128)
    (x2 : Reals Ideal Cert.ReferenceIdeal.S128) (x5 : Words Ideal Cert.ReferenceIdeal.S2x1600000) : S100000x128.Idx → EReal :=
  scaleBiasClamp1 (spread (scaledProduct0 x0 x1 (degreeColumn x5)) x5) (degreeColumn x5) (biasRow x2)

/-! ## Region 1's exit -/

theorem W6_v28 : W6 m ρ c (Proc.devRef .tc main_v28) = firstLayer (arg0 m c) (arg1 m c) (arg2 m c) (arg5 m c) := by
  refine ((W6_arr m ρ c 3).trans (region1_array (V5 m ρ) c)).trans ?_
  show scaleBiasClamp1 (W5 m ρ c (Proc.devRef .tc main_v26)) (W5 m ρ c (Proc.devRef .tc main_v15)) (W5 m ρ c (Proc.devRef .tc main_v27)) = _
  rw [W5_v26, W5_v15, W5_v27]
  rfl
theorem W6_v15 : W6 m ρ c (Proc.devRef .tc main_v15) = degreeColumn (arg5 m c) :=
  ((W6_arr m ρ c 1).trans (((dat1 (V5 m ρ) c).arrAt_in 1 rfl _).trans (A_eq1 (V5 m ρ) c 1))).trans (W5_v15 m ρ c)
theorem W6_v3 : W6 m ρ c (Proc.devRef .tc main_v3) = sources (F := Ideal) (arg5 m c) := (W6_of_ne m ρ c main_v3 (by decide)).trans (W5_v3 m ρ c)
theorem W6_v6 : W6 m ρ c (Proc.devRef .tc main_v6) = targets (F := Ideal) (arg5 m c) := (W6_of_ne m ρ c main_v6 (by decide)).trans (W5_v6 m ρ c)
theorem W6_arg3 : W6 m ρ c (Proc.devRef .tc main_arg3) = arg3 m c := (W6_of_ne m ρ c main_arg3 (by decide)).trans (W5_arg3 m ρ c)
theorem W6_arg4 : W6 m ρ c (Proc.devRef .tc main_arg4) = arg4 m c := (W6_of_ne m ρ c main_arg4 (by decide)).trans (W5_arg4 m ρ c)
theorem W6_arg6 : W6 m ρ c (Proc.devRef .tc main_arg6) = arg6 m c := (W6_of_ne m ρ c main_arg6 (by decide)).trans (W5_arg6 m ρ c)
theorem W6_arg7 : W6 m ρ c (Proc.devRef .tc main_arg7) = arg7 m c := (W6_of_ne m ρ c main_arg7 (by decide)).trans (W5_arg7 m ρ c)
theorem W6_arg8 : W6 m ρ c (Proc.devRef .tc main_arg8) = arg8 m c := (W6_of_ne m ρ c main_arg8 (by decide)).trans (W5_arg8 m ρ c)

/-! ## Region 2's exit -/

theorem W7_v29 : W7 m ρ c (Proc.devRef .tc main_v29)
    = scaledProduct2 (firstLayer (arg0 m c) (arg1 m c) (arg2 m c) (arg5 m c)) (arg3 m c) (degreeColumn (arg5 m c)) := by
  refine ((W7_arr m ρ c 3).trans (region2_array (V6 m ρ) c)).trans ?_
  show scaledProduct2 (W6 m ρ c (Proc.devRef .tc main_v28)) (W6 m ρ c (Proc.devRef .tc main_arg3)) (W6 m ρ c (Proc.devRef .tc main_v15)) = _
  rw [W6_v28, W6_arg3, W6_v15]
theorem W7_v15 : W7 m ρ c (Proc.devRef .tc main_v15) = degreeColumn (arg5 m c) :=
  ((W7_arr m ρ c 2).trans (((dat2 (V6 m ρ) c).arrAt_in 2 rfl _).trans (A_eq2 (V6 m ρ) c 2))).trans (W6_v15 m ρ c)
theorem W7_v3 : W7 m ρ c (Proc.devRef .tc main_v3) = sources (F := Ideal) (arg5 m c) := (W7_of_ne m ρ c main_v3 (by decide)).trans (W6_v3 m ρ c)
theorem W7_v6 : W7 m ρ c (Proc.devRef .tc main_v6) = targets (F := Ideal) (arg5 m c) := (W7_of_ne m ρ c main_v6 (by decide)).trans (W6_v6 m ρ c)
theorem W7_arg4 : W7 m ρ c (Proc.devRef .tc main_arg4) = arg4 m c := (W7_of_ne m ρ c main_arg4 (by decide)).trans (W6_arg4 m ρ c)
theorem W7_arg6 : W7 m ρ c (Proc.devRef .tc main_arg6) = arg6 m c := (W7_of_ne m ρ c main_arg6 (by decide)).trans (W6_arg6 m ρ c)
theorem W7_arg7 : W7 m ρ c (Proc.devRef .tc main_arg7) = arg7 m c := (W7_of_ne m ρ c main_arg7 (by decide)).trans (W6_arg7 m ρ c)
theorem W7_arg8 : W7 m ρ c (Proc.devRef .tc main_arg8) = arg8 m c := (W7_of_ne m ρ c main_arg8 (by decide)).trans (W6_arg8 m ρ c)

end Cert.KernelIdeal.Chain

end
-- ==== Proof.RegionScale3.lean ====
/- The second bias-and-clamp region: its output array after the whole grid, entry by entry. Each of the ten grid points
   takes 10000 rows of a [100000, 128] array `x`, the matching 10000 entries of a column `d` of row factors, and the
   one bias row `b`, and writes back `max (x * d + b) 0` for those rows; the ten row blocks tile the array, so the
   array ends as that one function of `x`, `d`, `b`. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen

namespace Cert.KernelIdeal.RegionValue

/-- The offsets of a whole-buffer access, both zero. -/
theorem zeroOffsets3 : (![0, 0] : Fin 2 → Nat) = fun _ => 0 := funext fun a => by fin_cases a <;> rfl

/-- A column `[a, 1]` broadcast along the rows to `[a, b]` reads, at `(p, q)`, the column's entry of row `p`. -/
theorem colBroadcast3_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One entry of the body's result: the block entry scaled by its row's factor, the bias of its column added,
    clamped below at zero. -/
theorem scalePayload3_apply (x : Vec Ideal S10000x128 .f32) (d : Vec Ideal S10000x1 .f32) (b : Vec Ideal S1x128 .f32)
    (p : Fin 10000) (q : Fin 128) :
    k3_pay1 (F := Ideal) x d b (ix2 p q)
      = max (x (ix2 p q) * d (ix2 p (0 : Fin 1)) + b (ix2 (0 : Fin 1) q)) (0 : EReal) := by
  unfold k3_pay1
  rw [maximumf_apply, addf_apply, mulf_apply, broadcast_apply, shapeCast_self, shapeCast_self, shapeCast_self,
    colBroadcast3_apply, broadcastTo_1b_ab_apply]
  show max _ (FloatOps.ofBits (F := Ideal) .f32 0x00000000#32) = _
  rw [Ideal.ofBits_def, Ideal.ofBits_zero_f32]

variable (V : (c : Dev nD) → (b : Ref sig .tc) → Buf (Elt Ideal) ((c : Thread nD τ).loc b))

/-- An array scaled row by row, a bias row added, clamped below at zero: entry `(r, q)` is
    `max (x (r, q) * d (r, 0) + b (0, q)) 0`. -/
def scaleBiasClamp3 (x : S100000x128.Idx → EReal) (d : S100000x1.Idx → EReal) (b : S1x128.Idx → EReal) :
    S100000x128.Idx → EReal := fun i =>
  max (x i * d (ix2 (n0 := 100000) (i 0) (0 : Fin 1)) + b (ix2 (n1 := 128) (0 : Fin 1) (i 1))) 0

/-- The whole output as that function of the three arrays the region finds. -/
abbrev scaledBiased3 (c : Dev nD) : S100000x128.Idx → EReal :=
  scaleBiasClamp3 (V c main_v39) (V c main_v15) (V c main_v40)

/-- The printed index maps over the ten grid points: the two row-blocked inputs and the output sit at row block `t`,
    column block 0; the bias row is always its one block. -/
theorem blockIndices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point `t` writes back is rows `10000 t … 10000 t + 9999` of `scaledBiased3`. -/
theorem flushed3_eq (c : Dev nD) (t : Fin cfg3.N) :
    (dat3 (F := Ideal) V c).flushed 3 t = ((cfg3.win 3).blk t).view.read (Elt Ideal) (scaledBiased3 V c) := by
  show (cfg3.win 3).cut (grid3.coords t) ((dat3 V c).after 3 t) = _
  rw [after3_3]
  unfold out3_3
  rw [View.canon_unit_zero zeroOffsets3]
  simp only [View.ld_unit_zero (S := S10000x128) zeroOffsets3, View.ld_unit_zero (S := S10000x1) zeroOffsets3,
    View.ld_unit_zero (S := S1x128) zeroOffsets3]
  obtain ⟨e00, e01, e10, e11, e20, e21, e30, e31⟩ := blockIndices3 t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (ix2 p q)
    = scaledBiased3 V c (((cfg3.win 3).blk t).view.emb (ix2 p q))
  rw [scalePayload3_apply]
  have hx : iblk3 V c 0 t (ix2 p q)
      = (V c main_v39 : S100000x128.Idx → EReal) (((cfg3.win 3).blk t).view.emb (ix2 p q)) := by
    show V c main_v39 (((cfg3.win 0).blk t).view.emb (ix2 p q)) = _
    refine congrArg (V c main_v39) (funext fun a => Fin.ext ?_)
    match a with
    | ⟨0, _⟩ =>
      show win3_0.index t (0 : Fin 2) * 10000 + 1 * p.val = win3_3.index t (0 : Fin 2) * 10000 + 1 * p.val
      omega
    | ⟨1, _⟩ =>
      show win3_0.index t (1 : Fin 2) * 128 + 1 * q.val = win3_3.index t (1 : Fin 2) * 128 + 1 * q.val
      omega
  have hd : iblk3 V c 1 t (ix2 p (0 : Fin 1))
      = (V c main_v15 : S100000x1.Idx → EReal)
          (ix2 (n0 := 100000) (((cfg3.win 3).blk t).view.emb (ix2 p q) 0) (0 : Fin 1)) := by
    show V c main_v15 (((cfg3.win 1).blk t).view.emb (ix2 p (0 : Fin 1))) = _
    refine congrArg (V c main_v15) (funext fun a => Fin.ext ?_)
    match a with
    | ⟨0, _⟩ =>
      show win3_1.index t (0 : Fin 2) * 10000 + 1 * p.val = win3_3.index t (0 : Fin 2) * 10000 + 1 * p.val
      omega
    | ⟨1, _⟩ =>
      show win3_1.index t (1 : Fin 2) * 1 + 1 * 0 = 0
      omega
  have hb : iblk3 V c 2 t (ix2 (0 : Fin 1) q)
      = (V c main_v40 : S1x128.Idx → EReal)
          (ix2 (n1 := 128) (0 : Fin 1) (((cfg3.win 3).blk t).view.emb (ix2 p q) 1)) := by
    show V c main_v40 (((cfg3.win 2).blk t).view.emb (ix2 (0 : Fin 1) q)) = _
    refine congrArg (V c main_v40) (funext fun a => Fin.ext ?_)
    match a with
    | ⟨0, _⟩ =>
      show win3_2.index t (0 : Fin 2) * 1 + 1 * 0 = 0
      omega
    | ⟨1, _⟩ =>
      show win3_2.index t (1 : Fin 2) * 128 + 1 * q.val = win3_3.index t (1 : Fin 2) * 128 + 1 * q.val
      omega
  rw [hx, hd, hb]
  rfl

/-- An index of the output array lies in point `t`'s block iff, on each axis, its coordinate is within the block's
    range there. -/
theorem mem_rowBlock3 (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v41).slice (win3_3.rect t)).set ↔ _
  rw [View.set_slice_whole, Rect.mem_set_unit]
  exact Iff.rfl

/-- Every row `r` of the output is written back by the grid point `r / 10000`. -/
theorem covered3 (i : S100000x128.Idx) :
    ∃ t : Fin cfg3.N, (cfg3.win 3).flush t = true ∧ i ∈ ((cfg3.win 3).blk t).view.set := by
  have hN : cfg3.N = 10 := N_3
  have hi0 : (i 0).val < 100000 := (i 0).isLt
  have hi1 : (i 1).val < 128 := (i 1).isLt
  obtain ⟨t, ht⟩ : ∃ t : Fin cfg3.N, t.val = (i 0).val / 10000 := ⟨⟨(i 0).val / 10000, by rw [hN]; omega⟩, rfl⟩
  obtain ⟨-, -, -, -, -, -, e30, e31⟩ := blockIndices3 t
  refine ⟨t, flush3_3 t, ?_⟩
  rw [mem_rowBlock3]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 128 ≤ (i 1).val ∧ (i 1).val < win3_3.index t (1 : Fin 2) * 128 + 128
    omega

/-- After the whole grid the output array is `scaledBiased3`: each point writes its rows of it, and the points' blocks
    cover every row. -/
theorem region3_array (c : Dev nD) :
    (dat3 (F := Ideal) V c).arrAt 3 cfg3.N = scaleBiasClamp3 (V c main_v39) (V c main_v15) (V c main_v40) :=
  (dat3 (F := Ideal) V c).arrAt_eq_of_cover 3 (scaledBiased3 V c) (fun t _ => flushed3_eq V c t) covered3

/-- The output of region 1 at row `p`, column `q`. -/
theorem region3_apply (c : Dev nD) (p : Fin 100000) (q : Fin 128) :
    (Gen.dat3 (F := Ideal) V c).arrAt 3 cfg3.N (ix2 p q)
      = max (α := EReal) (HAdd.hAdd (α := EReal) (β := EReal)
          (HMul.hMul (α := EReal) (β := EReal) (V c main_v39 (ix2 p q)) (V c main_v15 (ix2 p (0 : Fin 1))))
          (V c main_v40 (ix2 (0 : Fin 1) q))) 0 := by
  rw [region3_array]
  rfl

end Cert.KernelIdeal.RegionValue

end
-- ==== Proof.RegionDivide4.lean ====
/- The division region: its output array after the whole grid, entry by entry. Each of the ten grid points takes 10000
   rows of a [100000, 128] array `s` and the matching 10000 entries of a column `cnt` of counts, and writes back
   `s / max cnt 1` for those rows; the ten row blocks tile the array, so the array ends as that one function of `s` and
   `cnt`. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen

namespace Cert.KernelIdeal.RegionValue

/-- The offsets of a whole-buffer access, both zero. -/
theorem zeroOffsets4 : (![0, 0] : Fin 2 → Nat) = fun _ => 0 := funext fun a => by fin_cases a <;> rfl

/-- A column `[a, 1]` broadcast along the rows to `[a, b]` reads, at `(p, q)`, the column's entry of row `p`. -/
theorem colBroadcast4_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One entry of the body's result: the block entry divided by its row's count, the count raised to at least the
    literal one. -/
theorem dividePayload4_apply (cnt : Vec Ideal S10000x1 .f32) (s : Vec Ideal S10000x128 .f32) (p : Fin 10000) (q : Fin 128) :
    k4_pay1 (F := Ideal) cnt s (ix2 p q)
      = Ideal.div (s (ix2 p q)) (max (cnt (ix2 p (0 : Fin 1))) (Ideal.ofBits .f32 0x3F800000#32)) := by
  unfold k4_pay1
  rw [divf_apply, shapeCast_self, colBroadcast4_apply, maximumf_apply, shapeCast_self, broadcast_apply]
  rfl

variable (V : (c : Dev nD) → (b : Ref sig .tc) → Buf (Elt Ideal) ((c : Thread nD τ).loc b))

/-- An array divided row by row by a column of counts, each count first raised to at least the literal one: entry
    `(r, q)` is `s (r, q) / max (cnt (r, 0)) 1`. -/
def divideByCount4 (s : S100000x128.Idx → EReal) (cnt : S100000x1.Idx → EReal) : S100000x128.Idx → EReal := fun i =>
  Ideal.div (s i) (max (cnt (ix2 (n0 := 100000) (i 0) (0 : Fin 1))) (Ideal.ofBits .f32 0x3F800000#32))

/-- The whole output as that function of the two arrays the region finds. -/
abbrev divided4 (c : Dev nD) : S100000x128.Idx → EReal :=
  divideByCount4 (V c main_v44) (V c main_v49)

/-- The printed index maps over the ten grid points: both inputs and the output sit at row block `t`, column block 0. -/
theorem blockIndices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What grid point `t` writes back is rows `10000 t … 10000 t + 9999` of `divided4`. -/
theorem flushed4_eq (c : Dev nD) (t : Fin cfg4.N) :
    (dat4 (F := Ideal) V c).flushed 2 t = ((cfg4.win 2).blk t).view.read (Elt Ideal) (divided4 V c) := by
  show (cfg4.win 2).cut (grid4.coords t) ((dat4 V c).after 2 t) = _
  rw [after4_2]
  unfold out4_2
  rw [View.canon_unit_zero zeroOffsets4]
  simp only [View.ld_unit_zero (S := S10000x128) zeroOffsets4, View.ld_unit_zero (S := S10000x1) zeroOffsets4]
  obtain ⟨e00, e01, e10, e11, e20, e21⟩ := blockIndices4 t
  funext j
  obtain ⟨p, q, rfl⟩ : ∃ (p : Fin 10000) (q : Fin 128), j = ix2 p q := ⟨j 0, j 1, eq_ix2 j⟩
  show k4_pay1 (F := Ideal) (iblk4 V c 1 t) (iblk4 V c 0 t) (ix2 p q)
    = divided4 V c (((cfg4.win 2).blk t).view.emb (ix2 p q))
  rw [dividePayload4_apply]
  have hs : iblk4 V c 0 t (ix2 p q)
      = (V c main_v44 : S100000x128.Idx → EReal) (((cfg4.win 2).blk t).view.emb (ix2 p q)) := by
    show V c main_v44 (((cfg4.win 0).blk t).view.emb (ix2 p q)) = _
    refine congrArg (V c main_v44) (funext fun a => Fin.ext ?_)
    match a with
    | ⟨0, _⟩ =>
      show win4_0.index t (0 : Fin 2) * 10000 + 1 * p.val = win4_2.index t (0 : Fin 2) * 10000 + 1 * p.val
      omega
    | ⟨1, _⟩ =>
      show win4_0.index t (1 : Fin 2) * 128 + 1 * q.val = win4_2.index t (1 : Fin 2) * 128 + 1 * q.val
      omega
  have hc : iblk4 V c 1 t (ix2 p (0 : Fin 1))
      = (V c main_v49 : S100000x1.Idx → EReal)
          (ix2 (n0 := 100000) (((cfg4.win 2).blk t).view.emb (ix2 p q) 0) (0 : Fin 1)) := by
    show V c main_v49 (((cfg4.win 1).blk t).view.emb (ix2 p (0 : Fin 1))) = _
    refine congrArg (V c main_v49) (funext fun a => Fin.ext ?_)
    match a with
    | ⟨0, _⟩ =>
      show win4_1.index t (0 : Fin 2) * 10000 + 1 * p.val = win4_2.index t (0 : Fin 2) * 10000 + 1 * p.val
      omega
    | ⟨1, _⟩ =>
      show win4_1.index t (1 : Fin 2) * 1 + 1 * 0 = 0
      omega
  rw [hs, hc]
  rfl

/-- An index of the output array lies in point `t`'s block iff, on each axis, its coordinate is within the block's
    range there. -/
theorem mem_rowBlock4 (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v50).slice (win4_2.rect t)).set ↔ _
  rw [View.set_slice_whole, Rect.mem_set_unit]
  exact Iff.rfl

/-- Every row `r` of the output is written back by the grid point `r / 10000`. -/
theorem covered4 (i : S100000x128.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 128 := (i 1).isLt
  obtain ⟨t, ht⟩ : ∃ t : Fin cfg4.N, t.val = (i 0).val / 10000 := ⟨⟨(i 0).val / 10000, by rw [hN]; omega⟩, rfl⟩
  obtain ⟨-, -, -, -, e20, e21⟩ := blockIndices4 t
  refine ⟨t, flush4_2 t, ?_⟩
  rw [mem_rowBlock4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- After the whole grid the output array is `divided4`: each point writes its rows of it, and the points' blocks cover
    every row. -/
theorem region4_array (c : Dev nD) :
    (dat4 (F := Ideal) V c).arrAt 2 cfg4.N = divideByCount4 (V c main_v44) (V c main_v49) :=
  (dat4 (F := Ideal) V c).arrAt_eq_of_cover 2 (divided4 V c) (fun t _ => flushed4_eq V c t) covered4

/-- The divided array read at row `p`, column `q`. -/
theorem divideByCount4_apply (s : S100000x128.Idx → EReal) (cnt : S100000x1.Idx → EReal) (p : Fin 100000) (q : Fin 128) :
    divideByCount4 s cnt (ix2 p q)
      = Ideal.div (s (ix2 p q)) (max (cnt (ix2 p (0 : Fin 1))) (Ideal.ofBits .f32 0x3F800000#32)) := rfl

/-- The output at row `p`, column `q`: `s (p, q) / max (cnt (p, 0)) 1` of the two arrays the region finds, the literal
    one kept as its word. -/
theorem region4_apply (c : Dev nD) (p : Fin 100000) (q : Fin 128) :
    (Gen.dat4 (F := Ideal) V c).arrAt 2 cfg4.N (ix2 p q)
      = Ideal.div (V c main_v44 (ix2 p q)) (max (V c main_v49 (ix2 p (0 : Fin 1))) (Ideal.ofBits .f32 0x3F800000#32)) := by
  rw [region4_array]
  rfl

end Cert.KernelIdeal.RegionValue

end
-- ==== Proof.RegionDot5.lean ====
/- The row-wise dot product region: its output column after the whole grid, entry by entry. Each of the forty grid points
   takes 10000 rows of two [400000, 128] arrays `a` and `b`, multiplies them entry by entry, sums each row over its 128
   columns, and writes back those 10000 sums; the forty row blocks tile the [400000, 1] column, so row `e` of it ends as
   the sum over `k` of `a (e, k) * b (e, k)`. -/
import proofs.«109980_j48129403519138_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen

namespace Cert.KernelIdeal.RegionValue

/-- The offsets of a whole-buffer access, both zero. -/
theorem zeroOffsets5 : (![0, 0] : Fin 2 → Nat) = fun _ => 0 := funext fun a => by fin_cases a <;> rfl

/-- The sum of a `[10000, 128]` block along its rows: entry `p` of the result is the sum over the 128 columns `k` of the
    block's entry `(p, k)`. -/
theorem rowSum5_apply (src : FVec Ideal S10000x128 .f32) (h : S10000x128.Reduces [1] S10000) (hφ : FKind.Formats .f32)
    (hacc : (0x00000000#32 : BitVec 32) = FKind.add.neutral .f32 hφ) (p : Fin 10000) :
    multiReduction (F := Ideal) .add [1] S10000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src (funext fun a => Fin.ext ?_)
  match a with
  | ⟨0, _⟩ => rfl
  | ⟨1, _⟩ => rfl

/-- One entry of the body's result: the dot product of row `p` of the two blocks. -/
theorem dotPayload5_apply (a b : Vec Ideal S10000x128 .f32) (p : Fin 10000) :
    k5_pay1 (F := Ideal) a b (ix2 p (0 : Fin 1)) = ∑ k : Fin 128, a (ix2 p k) * b (ix2 p k) := by
  unfold k5_pay1
  rw [shapeCast_self, shapeCast_self]
  refine (shapeCast_apply _ _ (ix2 p (0 : Fin 1)) (ix1 p) ?_).trans ?_
  · rw [Shape.rowMajor_val_one, Shape.rowMajor_val_two]
    show p.val = p.val * 1 + 0
    omega
  refine (rowSum5_apply _ _ _ _ p).trans ?_
  rfl

variable (V : (c : Dev nD) → (b : Ref sig .tc) → Buf (Elt Ideal) ((c : Thread nD τ).loc b))

/-- The row-wise dot product of two `[400000, 128]` arrays, as a column: entry `(e, 0)` is the sum over the 128 columns
    `k` of `a (e, k) * b (e, k)`. -/
def rowDot5 (a b : S400000x128.Idx → EReal) : S400000x1.Idx → EReal := fun i =>
  ∑ k : Fin 128, a (ix2 (n0 := 400000) (i 0) k) * b (ix2 (n0 := 400000) (i 0) k)

/-- The whole output as that function of the two arrays the region finds. -/
abbrev dotted5 (c : Dev nD) : S400000x1.Idx → EReal :=
  rowDot5 (V c main_v60) (V c main_v69)

/-- The printed index maps over the forty grid points: both inputs and the output sit at row block `t`, column block 0. -/
theorem blockIndices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What grid point `t` writes back is rows `10000 t … 10000 t + 9999` of `dotted5`. -/
theorem flushed5_eq (c : Dev nD) (t : Fin cfg5.N) :
    (dat5 (F := Ideal) V c).flushed 2 t = ((cfg5.win 2).blk t).view.read (Elt Ideal) (dotted5 V c) := by
  show (cfg5.win 2).cut (grid5.coords t) ((dat5 V c).after 2 t) = _
  rw [after5_2]
  unfold out5_2
  rw [View.canon_unit_zero zeroOffsets5]
  simp only [View.ld_unit_zero (S := S10000x128) zeroOffsets5]
  obtain ⟨e00, e01, e10, e11, e20, e21⟩ := blockIndices5 t
  funext j
  obtain ⟨p, u, rfl⟩ : ∃ (p : Fin 10000) (u : Fin 1), j = ix2 p u := ⟨j 0, j 1, eq_ix2 j⟩
  obtain rfl : u = 0 := Subsingleton.elim _ _
  show k5_pay1 (F := Ideal) (iblk5 V c 0 t) (iblk5 V c 1 t) (ix2 p (0 : Fin 1))
    = dotted5 V c (((cfg5.win 2).blk t).view.emb (ix2 p (0 : Fin 1)))
  rw [dotPayload5_apply]
  refine Finset.sum_congr rfl fun k _ => ?_
  have ha : iblk5 V c 0 t (ix2 p k)
      = (V c main_v60 : S400000x128.Idx → EReal)
          (ix2 (n0 := 400000) (((cfg5.win 2).blk t).view.emb (ix2 p (0 : Fin 1)) 0) k) := by
    show V c main_v60 (((cfg5.win 0).blk t).view.emb (ix2 p k)) = _
    refine congrArg (V c main_v60) (funext fun a => Fin.ext ?_)
    match a with
    | ⟨0, _⟩ =>
      show win5_0.index t (0 : Fin 2) * 10000 + 1 * p.val = win5_2.index t (0 : Fin 2) * 10000 + 1 * p.val
      omega
    | ⟨1, _⟩ =>
      show win5_0.index t (1 : Fin 2) * 128 + 1 * k.val = k.val
      omega
  have hb : iblk5 V c 1 t (ix2 p k)
      = (V c main_v69 : S400000x128.Idx → EReal)
          (ix2 (n0 := 400000) (((cfg5.win 2).blk t).view.emb (ix2 p (0 : Fin 1)) 0) k) := by
    show V c main_v69 (((cfg5.win 1).blk t).view.emb (ix2 p k)) = _
    refine congrArg (V c main_v69) (funext fun a => Fin.ext ?_)
    match a with
    | ⟨0, _⟩ =>
      show win5_1.index t (0 : Fin 2) * 10000 + 1 * p.val = win5_2.index t (0 : Fin 2) * 10000 + 1 * p.val
      omega
    | ⟨1, _⟩ =>
      show win5_1.index t (1 : Fin 2) * 128 + 1 * k.val = k.val
      omega
  rw [ha, hb]

/-- An index of the output column lies in point `t`'s block iff, on each axis, its coordinate is within the block's
    range there. -/
theorem mem_rowBlock5 (t : Fin cfg5.N) (i : S400000x1.Idx) :
    i ∈ ((cfg5.win 2).blk t).view.set ↔ ∀ a : Fin 2, win5_2.index t a * S10000x1.size a ≤ (i a).val
      ∧ (i a).val < win5_2.index t a * S10000x1.size a + S10000x1.size a := by
  show i ∈ ((View.whole main_v70).slice (win5_2.rect t)).set ↔ _
  rw [View.set_slice_whole, Rect.mem_set_unit]
  exact Iff.rfl

/-- Every row `r` of the output is written back by the grid point `r / 10000`. -/
theorem covered5 (i : S400000x1.Idx) :
    ∃ t : Fin cfg5.N, (cfg5.win 2).flush t = true ∧ i ∈ ((cfg5.win 2).blk t).view.set := by
  have hN : cfg5.N = 40 := N_5
  have hi0 : (i 0).val < 400000 := (i 0).isLt
  have hi1 : (i 1).val < 1 := (i 1).isLt
  obtain ⟨t, ht⟩ : ∃ t : Fin cfg5.N, t.val = (i 0).val / 10000 := ⟨⟨(i 0).val / 10000, by rw [hN]; omega⟩, rfl⟩
  obtain ⟨-, -, -, -, e20, e21⟩ := blockIndices5 t
  refine ⟨t, flush5_2 t, ?_⟩
  rw [mem_rowBlock5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 1 ≤ (i 1).val ∧ (i 1).val < win5_2.index t (1 : Fin 2) * 1 + 1
    omega

/-- After the whole grid the output column is the row-wise dot product of the two arrays the region finds: each point
    writes its rows of it, and the points' blocks cover every row. -/
theorem region5_array (c : Dev nD) :
    (dat5 (F := Ideal) V c).arrAt 2 cfg5.N = rowDot5 (V c main_v60) (V c main_v69) :=
  (dat5 (F := Ideal) V c).arrAt_eq_of_cover 2 (dotted5 V c) (fun t _ => flushed5_eq V c t) covered5

/-- The row-wise dot product read at row `e`. -/
theorem rowDot5_apply (a b : S400000x128.Idx → EReal) (e : Fin 400000) :
    rowDot5 a b (ix2 e (0 : Fin 1)) = ∑ k : Fin 128, a (ix2 e k) * b (ix2 e k) := rfl

/-- The output at row `e`: the dot product of row `e` of the two arrays the region finds (the product is the extended
    reals'; it is spelt with its types because an array's entry type is the extended reals only after unfolding). -/
theorem region5_apply (c : Dev nD) (e : Fin 400000) :
    (Gen.dat5 (F := Ideal) V c).arrAt 2 cfg5.N (ix2 e (0 : Fin 1))
      = ∑ k : Fin 128, HMul.hMul (α := EReal) (β := EReal) (γ := EReal) (V c main_v60 (ix2 e k)) (V c main_v69 (ix2 e k)) := by
  rw [region5_array]
  rfl

end Cert.KernelIdeal.RegionValue

end
-- ==== Proof.ChainB.lean ====
/-
  The idealized kernel's buffers, boundary by boundary: from the second gather and scatter to the returned vector.

  After region 2 the host gathers and sums as before and region 3 finishes the second layer.  The host then sums the
  rows assigned to each pooling segment and counts them; region 4 divides each summed row by the larger of its count
  and one.  The host gathers, for each decoded pair, the pooled rows of its two nodes; region 5 multiplies them entry
  by entry and sums each row; the last host line drops the unit axis.
-/
import proofs.«109980_j48129403519138_2_alg».proof.Proof.ChainA
import proofs.«109980_j48129403519138_2_alg».proof.Proof.RegionScale3
import proofs.«109980_j48129403519138_2_alg».proof.Proof.RegionDivide4
import proofs.«109980_j48129403519138_2_alg».proof.Proof.RegionDot5

set_option maxRecDepth 16384
set_option maxHeartbeats 4000000

noncomputable section

namespace Cert.KernelIdeal.Chain

open Cert.KernelIdeal Cert.KernelIdeal.Gen Cert.KernelIdeal.RegionValue
open Idealize.ShloMosaic Idealize.ShloMosaic.TcCoe Idealize.SL.Sem Idealize.ShloMosaic.StableHlo
open Cert.ReferenceIdeal.Stage (Words Reals sources targets wrapped invSqrtDegree featureZeros count pairs firsts seconds wrappedPairs)

variable (m : (ℓ : Loc nD τ sig) → Buf (Elt Ideal) ℓ) (ρ : Dev nD → PrngReg) (c : Dev nD)

/-! ## Region 3's entry: the second gather and scatter, the second bias as a row -/

theorem W8_v39 : W8 m ρ c (Proc.devRef .tc main_v39)
    = spread (scaledProduct2 (firstLayer (arg0 m c) (arg1 m c) (arg2 m c) (arg5 m c)) (arg3 m c) (degreeColumn (arg5 m c))) (arg5 m c) := by
  have h : W8 m ρ c (Proc.devRef .tc main_v39)
      = Host.scatterAdd (F := Ideal) (φ := .f32) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W7 m ρ c (Proc.devRef .tc main_v6)))
          (Host.gather gather_S100000x128_S1700000x1_S1700000x128_1_0_n_n_0_1_1128 (W7 m ρ c (Proc.devRef .tc main_v29))
            (broadcastInDim S1700000x1 ![0] bcast_S1700000_S1700000x1_0
              (select (cmpi .slt (W7 m ρ c (Proc.devRef .tc main_v3)) (broadcastInDim S1700000 ![] bcast_S_S1700000 (constantI S_ 32 0#32)))
                (addi (W7 m ρ c (Proc.devRef .tc main_v3)) (broadcastInDim S1700000 ![] bcast_S_S1700000 (constantI S_ 32 100000#32)))
                (W7 m ρ c (Proc.devRef .tc main_v3))))) := by
    dsimp only [W8, hostOps3]; after_results; all_goals rfl
  rw [h, W7_v6, W7_v29, W7_v3]
  rfl
theorem W8_v40 : W8 m ρ c (Proc.devRef .tc main_v40) = biasRow (arg4 m c) := by
  have h : W8 m ρ c (Proc.devRef .tc main_v40) = shapeCast S1x128 (W7 m ρ c (Proc.devRef .tc main_arg4)) shapeCasts_S128_S1x128 := by
    dsimp only [W8, hostOps3]; after_results; all_goals rfl
  rw [h, W7_arg4]
  rfl
theorem W8_v15 : W8 m ρ c (Proc.devRef .tc main_v15) = degreeColumn (arg5 m c) := by
  have h : W8 m ρ c (Proc.devRef .tc main_v15) = W7 m ρ c (Proc.devRef .tc main_v15) := by dsimp only [W8, hostOps3]; after_results; all_goals rfl
  rw [h, W7_v15]
theorem W8_arg6 : W8 m ρ c (Proc.devRef .tc main_arg6) = arg6 m c := by
  have h : W8 m ρ c (Proc.devRef .tc main_arg6) = W7 m ρ c (Proc.devRef .tc main_arg6) := by dsimp only [W8, hostOps3]; after_results; all_goals rfl
  rw [h, W7_arg6]
theorem W8_arg7 : W8 m ρ c (Proc.devRef .tc main_arg7) = arg7 m c := by
  have h : W8 m ρ c (Proc.devRef .tc main_arg7) = W7 m ρ c (Proc.devRef .tc main_arg7) := by dsimp only [W8, hostOps3]; after_results; all_goals rfl
  rw [h, W7_arg7]
theorem W8_arg8 : W8 m ρ c (Proc.devRef .tc main_arg8) = arg8 m c := by
  have h : W8 m ρ c (Proc.devRef .tc main_arg8) = W7 m ρ c (Proc.devRef .tc main_arg8) := by dsimp only [W8, hostOps3]; after_results; all_goals rfl
  rw [h, W7_arg8]

/-- The second layer as the kernel computes it. -/
def secondLayer (x0 : Reals Ideal Cert.ReferenceIdeal.S100000x128) (x1 : Reals Ideal Cert.ReferenceIdeal.S128x128)
    (x2 : Reals Ideal Cert.ReferenceIdeal.S128) (x3 : Reals Ideal Cert.ReferenceIdeal.S128x128) (x4 : Reals Ideal Cert.ReferenceIdeal.S128)
    (x5 : Words Ideal Cert.ReferenceIdeal.S2x1600000) : S100000x128.Idx → EReal :=
  scaleBiasClamp3 (spread (scaledProduct2 (firstLayer x0 x1 x2 x5) x3 (degreeColumn x5)) x5) (degreeColumn x5) (biasRow x4)

/-! ## Region 3's exit -/

theorem W9_v41 : W9 m ρ c (Proc.devRef .tc main_v41) = secondLayer (arg0 m c) (arg1 m c) (arg2 m c) (arg3 m c) (arg4 m c) (arg5 m c) := by
  refine ((W9_arr m ρ c 3).trans (region3_array (V8 m ρ) c)).trans ?_
  show scaleBiasClamp3 (W8 m ρ c (Proc.devRef .tc main_v39)) (W8 m ρ c (Proc.devRef .tc main_v15)) (W8 m ρ c (Proc.devRef .tc main_v40)) = _
  rw [W8_v39, W8_v15, W8_v40]
  rfl
theorem W9_arg6 : W9 m ρ c (Proc.devRef .tc main_arg6) = arg6 m c := (W9_of_ne m ρ c main_arg6 (by decide)).trans (W8_arg6 m ρ c)
theorem W9_arg7 : W9 m ρ c (Proc.devRef .tc main_arg7) = arg7 m c := (W9_of_ne m ρ c main_arg7 (by decide)).trans (W8_arg7 m ρ c)
theorem W9_arg8 : W9 m ρ c (Proc.devRef .tc main_arg8) = arg8 m c := (W9_of_ne m ρ c main_arg8 (by decide)).trans (W8_arg8 m ρ c)

/-! ## Region 4's entry: the segment sums and the counts -/

/-- The rows of an array summed onto their pooling segments. -/
def segmentSums (H : S100000x128.Idx → EReal) (x6 : Words Ideal Cert.ReferenceIdeal.S100000) : S100000x128.Idx → EReal :=
  Host.scatterAdd (F := Ideal) (φ := .f32) scatter_S100000x128_S100000x1_S100000x128_1_0_0_1 (featureZeros (F := Ideal))
    (broadcastInDim S100000x1 ![0] bcast_S100000_S100000x1_0 x6) H

/-- The segments' counts as a column. -/
def countColumn (x6 : Words Ideal Cert.ReferenceIdeal.S100000) : S100000x1.Idx → EReal :=
  shapeCast S100000x1 (count (F := Ideal) x6) shapeCasts_S100000_S100000x1

theorem W10_v44 : W10 m ρ c (Proc.devRef .tc main_v44)
    = segmentSums (secondLayer (arg0 m c) (arg1 m c) (arg2 m c) (arg3 m c) (arg4 m c) (arg5 m c)) (arg6 m c) := by
  have h : W10 m ρ c (Proc.devRef .tc main_v44)
      = Host.scatterAdd (F := Ideal) (φ := .f32) scatter_S100000x128_S100000x1_S100000x128_1_0_0_1
          (broadcastInDim S100000x128 ![] bcast_S_S100000x128 (constant (F := Ideal) S_ .f32 0x00000000#32))
          (broadcastInDim S100000x1 ![0] bcast_S100000_S100000x1_0 (W9 m ρ c (Proc.devRef .tc main_arg6))) (W9 m ρ c (Proc.devRef .tc main_v41)) := by
    dsimp only [W10, hostOps4]; after_results; all_goals rfl
  rw [h, W9_arg6, W9_v41]
  rfl
theorem W10_v49 : W10 m ρ c (Proc.devRef .tc main_v49) = countColumn (arg6 m c) := by
  have h : W10 m ρ c (Proc.devRef .tc main_v49)
      = shapeCast S100000x1
          (Host.scatterAdd (F := Ideal) (φ := .f32) scatter_S100000_S100000x1_S100000_n_0_0_1
            (broadcastInDim S100000 ![] bcast_S_S100000 (constant (F := Ideal) S_ .f32 0x00000000#32))
            (broadcastInDim S100000x1 ![0] bcast_S100000_S100000x1_0 (W9 m ρ c (Proc.devRef .tc main_arg6)))
            (broadcastInDim S100000 ![] bcast_S_S100000 (constant (F := Ideal) S_ .f32 0x3F800000#32))) shapeCasts_S100000_S100000x1 := by
    dsimp only [W10, hostOps4]; after_results; all_goals rfl
  rw [h, W9_arg6]
  rfl
theorem W10_arg7 : W10 m ρ c (Proc.devRef .tc main_arg7) = arg7 m c := by
  have h : W10 m ρ c (Proc.devRef .tc main_arg7) = W9 m ρ c (Proc.devRef .tc main_arg7) := by dsimp only [W10, hostOps4]; after_results; all_goals rfl
  rw [h, W9_arg7]
theorem W10_arg8 : W10 m ρ c (Proc.devRef .tc main_arg8) = arg8 m c := by
  have h : W10 m ρ c (Proc.devRef .tc main_arg8) = W9 m ρ c (Proc.devRef .tc main_arg8) := by dsimp only [W10, hostOps4]; after_results; all_goals rfl
  rw [h, W9_arg8]

/-- The pooled array as the kernel computes it. -/
def pooledRows (H : S100000x128.Idx → EReal) (x6 : Words Ideal Cert.ReferenceIdeal.S100000) : S100000x128.Idx → EReal :=
  divideByCount4 (segmentSums H x6) (countColumn x6)

/-! ## Region 4's exit -/

theorem W11_v50 : W11 m ρ c (Proc.devRef .tc main_v50)
    = pooledRows (secondLayer (arg0 m c) (arg1 m c) (arg2 m c) (arg3 m c) (arg4 m c) (arg5 m c)) (arg6 m c) := by
  refine ((W11_arr m ρ c 2).trans (region4_array (V10 m ρ) c)).trans ?_
  show divideByCount4 (W10 m ρ c (Proc.devRef .tc main_v44)) (W10 m ρ c (Proc.devRef .tc main_v49)) = _
  rw [W10_v44, W10_v49]
  rfl
theorem W11_arg7 : W11 m ρ c (Proc.devRef .tc main_arg7) = arg7 m c := (W11_of_ne m ρ c main_arg7 (by decide)).trans (W10_arg7 m ρ c)
theorem W11_arg8 : W11 m ρ c (Proc.devRef .tc main_arg8) = arg8 m c := (W11_of_ne m ρ c main_arg8 (by decide)).trans (W10_arg8 m ρ c)

/-! ## Region 5's entry: the pooled rows of each pair's two nodes -/

/-- The pooled rows of the pairs' first nodes. -/
def firstRows (Z : S100000x128.Idx → EReal) (x7 x8 : Words Ideal Cert.ReferenceIdeal.S2x200000) : S400000x128.Idx → EReal :=
  Host.gather gather_S100000x128_S400000x1_S400000x128_1_0_n_n_0_1_1128 Z
    (wrappedPairs (F := Ideal) (firsts (F := Ideal) (pairs (F := Ideal) x7 x8)))
/-- The pooled rows of the pairs' second nodes. -/
def secondRows (Z : S100000x128.Idx → EReal) (x7 x8 : Words Ideal Cert.ReferenceIdeal.S2x200000) : S400000x128.Idx → EReal :=
  Host.gather gather_S100000x128_S400000x1_S400000x128_1_0_n_n_0_1_1128 Z
    (wrappedPairs (F := Ideal) (seconds (F := Ideal) (pairs (F := Ideal) x7 x8)))

theorem W12_v60 : W12 m ρ c (Proc.devRef .tc main_v60)
    = firstRows (pooledRows (secondLayer (arg0 m c) (arg1 m c) (arg2 m c) (arg3 m c) (arg4 m c) (arg5 m c)) (arg6 m c)) (arg7 m c) (arg8 m c) := by
  have h : W12 m ρ c (Proc.devRef .tc main_v60)
      = firstRows (W11 m ρ c (Proc.devRef .tc main_v50)) (W11 m ρ c (Proc.devRef .tc main_arg7)) (W11 m ρ c (Proc.devRef .tc main_arg8)) := by
    dsimp only [W12, hostOps5]; after_results; all_goals rfl
  rw [h, W11_v50, W11_arg7, W11_arg8]
theorem W12_v69 : W12 m ρ c (Proc.devRef .tc main_v69)
    = secondRows (pooledRows (secondLayer (arg0 m c) (arg1 m c) (arg2 m c) (arg3 m c) (arg4 m c) (arg5 m c)) (arg6 m c)) (arg7 m c) (arg8 m c) := by
  have h : W12 m ρ c (Proc.devRef .tc main_v69)
      = secondRows (W11 m ρ c (Proc.devRef .tc main_v50)) (W11 m ρ c (Proc.devRef .tc main_arg7)) (W11 m ρ c (Proc.devRef .tc main_arg8)) := by
    dsimp only [W12, hostOps5]; after_results; all_goals rfl
  rw [h, W11_v50, W11_arg7, W11_arg8]

/-! ## Region 5's exit, and the returned vector -/

/-- The kernel's result as a function of its nine arguments. -/
def kernelResult (x0 : Reals Ideal Cert.ReferenceIdeal.S100000x128) (x1 : Reals Ideal Cert.ReferenceIdeal.S128x128)
    (x2 : Reals Ideal Cert.ReferenceIdeal.S128) (x3 : Reals Ideal Cert.ReferenceIdeal.S128x128) (x4 : Reals Ideal Cert.ReferenceIdeal.S128)
    (x5 : Words Ideal Cert.ReferenceIdeal.S2x1600000) (x6 : Words Ideal Cert.ReferenceIdeal.S100000)
    (x7 x8 : Words Ideal Cert.ReferenceIdeal.S2x200000) : S400000.Idx → EReal :=
  shapeCast S400000
    (rowDot5 (firstRows (pooledRows (secondLayer x0 x1 x2 x3 x4 x5) x6) x7 x8) (secondRows (pooledRows (secondLayer x0 x1 x2 x3 x4 x5) x6) x7 x8))
    shapeCasts_S400000x1_S400000

theorem W13_v70 : W13 m ρ c (Proc.devRef .tc main_v70)
    = rowDot5 (firstRows (pooledRows (secondLayer (arg0 m c) (arg1 m c) (arg2 m c) (arg3 m c) (arg4 m c) (arg5 m c)) (arg6 m c)) (arg7 m c) (arg8 m c))
        (secondRows (pooledRows (secondLayer (arg0 m c) (arg1 m c) (arg2 m c) (arg3 m c) (arg4 m c) (arg5 m c)) (arg6 m c)) (arg7 m c) (arg8 m c)) := by
  refine ((W13_arr m ρ c 2).trans (region5_array (V12 m ρ) c)).trans ?_
  show rowDot5 (W12 m ρ c (Proc.devRef .tc main_v60)) (W12 m ρ c (Proc.devRef .tc main_v69)) = _
  rw [W12_v60, W12_v69]

/-- THE CHAIN: after the last segment the result buffer holds the kernel's result of the launched arguments. -/
theorem result_eq : W14 m ρ c (Proc.devRef .tc main_v71)
    = kernelResult (arg0 m c) (arg1 m c) (arg2 m c) (arg3 m c) (arg4 m c) (arg5 m c) (arg6 m c) (arg7 m c) (arg8 m c) := by
  have h : W14 m ρ c (Proc.devRef .tc main_v71) = shapeCast S400000 (W13 m ρ c (Proc.devRef .tc main_v70)) shapeCasts_S400000x1_S400000 := by
    dsimp only [W14, hostOps6]; after_results; all_goals rfl
  rw [h, W13_v70]
  rfl

end Cert.KernelIdeal.Chain

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.StageFacts.lean ====
/-
  Index facts about the shared building blocks, on the extended reals.

  The zero arrays read zero.  An edge whose target word, read signed, is the node p reads node p itself when the same
  word is used for a gather: a non-negative word is not counted from the end, and a node number is within range, so
  neither the wrap nor the clamp changes it.  The inverse square root degree is, at every node, either the inverse
  square root of a positive value or zero: never negative and never infinite, whatever the degree is.
-/
import proofs.«109980_j48129403519138_2_alg».proof.Proof.RefStages
import proofs.«109980_j48129403519138_2_alg».proof.Proof.LibRowOps
import proofs.«109980_j48129403519138_2_alg».proof.Proof.LibBroadcasts
import Idealize.ShloMosaic.PureOps.Ideal.Laws

set_option maxRecDepth 16384

noncomputable section

namespace Cert.ReferenceIdeal.Stage

open Cert.ReferenceIdeal Cert.ReferenceIdeal.Gen Idealize.ShloMosaic Idealize.ShloMosaic.ValueIdx

/-- Zero at every node reads zero. -/
theorem nodeZeros_apply (r : Fin 100000) : nodeZeros (F := Ideal) (ix1 r) = 0 := by
  unfold nodeZeros
  rw [Broadcasts.scalar_apply]
  exact Ideal.ofBits_zero_f32

/-- Zero at every node and feature reads zero. -/
theorem featureZeros_apply (p : Fin 100000) (q : Fin 128) : featureZeros (F := Ideal) (ix2 p q) = 0 := by
  unfold featureZeros
  rw [Broadcasts.scalar_apply]
  exact Ideal.ofBits_zero_f32

/-- The node a gather reads for edge e of an endpoint list. -/
def nodeOf (v : Words Ideal S1700000) (e : Fin 1700000) : Fin 100000 :=
  RowOps.clampRow 100000 (by decide) (wrapped (F := Ideal) v (ix2 e (0 : Fin 1)))

/-- The wrapped list at edge e: the word itself, or the word plus the node count when it is negative. -/
theorem wrapped_apply (v : Words Ideal S1700000) (e : Fin 1700000) :
    wrapped (F := Ideal) v (ix2 e (0 : Fin 1))
      = Scalar.select (IntOp.cmpi .slt (v (ix1 e)) (0#32)) (IntOp.addi (v (ix1 e)) (100000#32)) (v (ix1 e)) := by
  unfold wrapped
  rw [Broadcasts.column_apply]
  show Scalar.select (IntOp.cmpi .slt (v (ix1 e)) (broadcastInDim S1700000 ![] bcast_S_S1700000 (constantI S_ 32 0#32) (ix1 e)))
      (IntOp.addi (v (ix1 e)) (broadcastInDim S1700000 ![] bcast_S_S1700000 (constantI S_ 32 100000#32) (ix1 e))) (v (ix1 e)) = _
  rw [Broadcasts.scalar_apply, Broadcasts.scalar_apply]
  rfl

/-- An edge whose word is the node p reads node p. -/
theorem nodeOf_eq (v : Words Ideal S1700000) (e : Fin 1700000) (p : Fin 100000)
    (h : (v (ix1 e)).toInt = (p.val : Int)) : nodeOf v e = p := by
  unfold nodeOf
  rw [wrapped_apply]
  have hp := p.isLt
  have hns : IntOp.cmpi .slt (v (ix1 e)) (0#32) ≠ 1 := by
    show BitVec.ofBool ((v (ix1 e)).slt 0#32) ≠ 1
    have : (v (ix1 e)).slt 0#32 = false := by
      rw [BitVec.slt, h]
      simp
    rw [this]; decide
  unfold Scalar.select
  rw [if_neg hns]
  unfold RowOps.clampRow
  apply Fin.ext
  show min (v (ix1 e)).toInt.toNat (100000 - 1) = p.val
  rw [h]
  omega

/-- For ANY array D in place of the degree: where D is positive its inverse square root, zero elsewhere, is at every
    node never negative and never infinite. -/
theorem selected_bounds (D Z : Reals Ideal S100000) (r : Fin 100000) (hZ : Z (ix1 r) = 0) :
    0 ≤ select (cmpf (F := Ideal) (φ := .f32) .ogt D Z) (Host.rsqrt (F := Ideal) (φ := .f32) D) Z (ix1 r)
      ∧ select (cmpf (F := Ideal) (φ := .f32) .ogt D Z) (Host.rsqrt (F := Ideal) (φ := .f32) D) Z (ix1 r) ≠ ⊤ := by
  show 0 ≤ Scalar.select (FloatOps.cmpf (F := Ideal) (φ := .f32) .ogt (D (ix1 r)) (Z (ix1 r)))
        (FloatOps.hostUnary (F := Ideal) (φ := .f32) .rsqrt (D (ix1 r))) (Z (ix1 r))
      ∧ Scalar.select (FloatOps.cmpf (F := Ideal) (φ := .f32) .ogt (D (ix1 r)) (Z (ix1 r)))
        (FloatOps.hostUnary (F := Ideal) (φ := .f32) .rsqrt (D (ix1 r))) (Z (ix1 r)) ≠ ⊤
  rw [hZ]
  exact RowOps.dinv_nonneg_ne_top (D (ix1 r))

/-- The inverse square root degree at a node is never negative and never infinite: the degree is never looked at. -/
theorem invSqrtDegree_bounds (t : Words Ideal S1700000) (r : Fin 100000) :
    0 ≤ invSqrtDegree (F := Ideal) t (ix1 r) ∧ invSqrtDegree (F := Ideal) t (ix1 r) ≠ ⊤ :=
  selected_bounds (degree (F := Ideal) t) (nodeZeros (F := Ideal)) r (nodeZeros_apply r)

end Cert.ReferenceIdeal.Stage

end
-- ==== Proof.LibHostScatter.lean ====
/-
  The host's accumulating row scatter on the extended reals, read at an entry, stated for the host operation itself.

  On the extended reals the host's accumulating scatter is the exact sum.  Stated at arbitrary sizes, where the
  identification of the host operation with that sum is a matter of unfolding and nothing is enumerated, and then used at
  any literal sizes by rewriting.
-/
import proofs.«109980_j48129403519138_2_alg».proof.Proof.LibRowOps

noncomputable section

open scoped BigOperators

namespace RowOps

open Idealize.ShloMosaic Idealize.ShloMosaic.ValueIdx

/-- ENTRY (i, c) OF THE HOST'S ACCUMULATING ROW SCATTER on the extended reals: the operand's entry plus the sum, over the
    update rows whose word read signed is i, of the rows' entry c. -/
theorem hostScatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Host.scatterAdd (F := Ideal) (φ := .f32) d x idx upd (ix2 i c)
      = x (ix2 i c) + ∑ e ∈ Finset.univ.filter (fun e : Fin m => (idx (ix2 e (0 : Fin 1))).toInt = (i.val : Int)), upd (ix2 e c) :=
  scatterAdd_rows_apply d hu hi hs hv x idx upd i c

end RowOps

end
-- ==== Proof.LayerLaw.lean ====
/-
  One layer, two arrangements, one value.

  For a target node p write E(p) for the edges whose target word is p, r(e) for the node a gather reads as edge e's
  source, and d for the inverse square root degree.  The reference scales every gathered row by the product of its two
  endpoints' d and then sums onto the target:
      out(p, q) = max( Σ_{e ∈ E(p)} (X·W)(r(e), q) · (d(r(e)) · d(p)) + b(q), 0 ).
  The other arrangement scales the product X·W by d before the gather and the summed rows by d after the scatter:
      out(p, q) = max( (Σ_{e ∈ E(p)} (X·W)(r(e), q) · d(r(e))) · d(p) + b(q), 0 ).
  An edge of E(p) reads node p as its target, so the reference's second factor is d(p) on all of E(p); the product is
  associative; and d(p), being non-negative and finite, moves across the sum on the extended reals.
-/
import proofs.«109980_j48129403519138_2_alg».proof.Proof.StageFacts
import proofs.«109980_j48129403519138_2_alg».proof.Proof.LibHostScatter

set_option maxRecDepth 16384

noncomputable section

open scoped BigOperators

namespace Cert.ReferenceIdeal.Stage

open Cert.ReferenceIdeal Cert.ReferenceIdeal.Gen Idealize.ShloMosaic Idealize.ShloMosaic.ValueIdx

/-! ## The host's matrix product at an entry -/

theorem dot_lhs_row (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot_lhs_col (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
theorem dot_rhs_row (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
theorem dot_rhs_col (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (r, q) of the product is the sum over k of X(r, k) · W(k, q). -/
theorem dot_apply (X : Reals Ideal S100000x128) (W : Reals Ideal S128x128) (r : Fin 100000) (q : Fin 128) :
    Host.dotGeneral (F := Ideal) (φ₁ := .f32) (φ₂ := .f32) dot_S100000x128_S128x128_S100000x128_1_0_0_1_n_n none X W (ix2 r q) = ∑ k : Fin 128, X (ix2 r k) * W (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact dot_lhs_row _ _
    | ⟨1, _⟩ => exact (dot_lhs_col _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-! ## The edges into a node, and the pieces of a layer at an entry -/

/-- The edges whose target word, read signed, is the node p. -/
def edgesInto (t : Words Ideal S1700000) (p : Fin 100000) : Finset (Fin 1700000) :=
  Finset.univ.filter (fun e : Fin 1700000 => (t (ix1 e)).toInt = (p.val : Int))

/-- The targets as a column of words read the target word of edge e at (e, 0). -/
theorem targetColumn_apply (t : Words Ideal S1700000) (e : Fin 1700000) :
    broadcastInDim S1700000x1 ![0] bcast_S1700000_S1700000x1_0 t (ix2 e (0 : Fin 1)) = t (ix1 e) :=
  Broadcasts.column_apply _ t e

/-- A row gathered for edge e is the operand's row at the node the gather reads. -/
theorem gatheredRow_apply (A : Reals Ideal S100000x128) (s : Words Ideal S1700000) (e : Fin 1700000) (q : Fin 128) :
    Host.gather gather_S100000x128_S1700000x1_S1700000x128_1_0_n_n_0_1_1128 A (wrapped (F := Ideal) s) (ix2 e q)
      = A (ix2 (nodeOf s e) q) :=
  RowOps.gather_rows_apply _ rfl rfl rfl rfl rfl rfl rfl (by decide) A _ e q

/-- For ANY node array d: the product of d gathered along two endpoint lists, at edge e, is d at the node the first
    list reads times d at the node the second list reads. -/
theorem gatheredPair_apply (d : Reals Ideal S100000) (s t : Words Ideal S1700000) (e : Fin 1700000) :
    mulf (F := Ideal) (φ := .f32)
        (Host.gather gather_S100000_S1700000x1_S1700000_n_0_n_n_0_1_1 d (wrapped (F := Ideal) s))
        (Host.gather gather_S100000_S1700000x1_S1700000_n_0_n_n_0_1_1 d (wrapped (F := Ideal) t)) (ix1 e)
      = d (ix1 (nodeOf s e)) * d (ix1 (nodeOf t e)) := by
  show FloatOps.mulf (F := Ideal) (φ := .f32)
      (Host.gather gather_S100000_S1700000x1_S1700000_n_0_n_n_0_1_1 d (wrapped (F := Ideal) s) (ix1 e))
      (Host.gather gather_S100000_S1700000x1_S1700000_n_0_n_n_0_1_1 d (wrapped (F := Ideal) t) (ix1 e)) = _
  rw [RowOps.gather_vec_apply _ rfl rfl rfl rfl rfl rfl rfl (by decide), RowOps.gather_vec_apply _ rfl rfl rfl rfl rfl rfl rfl (by decide)]
  rfl

/-- The edge weight of edge e: the product of the two endpoints' inverse square root degrees (the degree is never
    looked at). -/
theorem edgeWeight_apply (s t : Words Ideal S1700000) (e : Fin 1700000) :
    edgeWeight (F := Ideal) s t (ix1 e)
      = invSqrtDegree (F := Ideal) t (ix1 (nodeOf s e)) * invSqrtDegree (F := Ideal) t (ix1 (nodeOf t e)) :=
  gatheredPair_apply (invSqrtDegree (F := Ideal) t) s t e

/-- The accumulating scatter of edge rows onto the nodes: entry (p, q) is the sum over the edges into p. -/
theorem scatteredRows_apply (t : Words Ideal S1700000) (U : Reals Ideal S1700000x128) (p : Fin 100000) (q : Fin 128) :
    Host.scatterAdd (F := Ideal) (φ := .f32) scatter_S100000x128_S1700000x1_S1700000x128_1_0_0_1 (featureZeros (F := Ideal))
        (broadcastInDim S1700000x1 ![0] bcast_S1700000_S1700000x1_0 t) U (ix2 p q)
      = ∑ e ∈ edgesInto t p, U (ix2 e q) := by
  rw [RowOps.hostScatterAdd_rows_apply _ rfl rfl rfl rfl, featureZeros_apply, zero_add]
  unfold edgesInto
  refine Finset.sum_congr ?_ fun _ _ => rfl
  ext e
  simp only [Finset.mem_filter, Finset.mem_univ, true_and]
  rw [targetColumn_apply]

/-! ## The two arrangements, for ANY node array in place of the inverse square root degree

Everything below is stated for an arbitrary array d over the nodes.  The reference's layer uses d only through the
edge weights d(r(e)) · d(target of e); the other arrangement uses it as a scale before the gather and after the
scatter.  They agree whenever d is nowhere negative and nowhere infinite. -/

/-- Pointwise: the larger of S · dd + bb and zero, for arrays of any shape. -/
def clampedAffine {s : Shape} (S dd bb : s.Idx → EReal) : s.Idx → EReal := fun i => max (S i * dd i + bb i) 0

theorem clampedAffine_apply {s : Shape} (S dd bb : s.Idx → EReal) (i : s.Idx) :
    clampedAffine S dd bb i = max (S i * dd i + bb i) 0 := rfl

/-- A node array read along the rows of a node-by-feature array. -/
def alongRows (d : Reals Ideal S100000) : Reals Ideal S100000x128 := fun i => d (ix1 (n := 100000) (i 0))
theorem alongRows_apply (d : Reals Ideal S100000) (p : Fin 100000) (q : Fin 128) : alongRows d (ix2 p q) = d (ix1 p) := rfl

/-- A feature array read along the columns of a node-by-feature array. -/
def alongColumns (b : Reals Ideal S128) : Reals Ideal S100000x128 := fun i => b (ix1 (n := 128) (i 1))
theorem alongColumns_apply (b : Reals Ideal S128) (p : Fin 100000) (q : Fin 128) : alongColumns b (ix2 p q) = b (ix1 q) := rfl

/-- The reference's layer with d in place of the inverse square root degree. -/
def layerBy (X : Reals Ideal S100000x128) (W : Reals Ideal S128x128) (b : Reals Ideal S128) (s t : Words Ideal S1700000)
    (d : Reals Ideal S100000) : Reals Ideal S100000x128 :=
  maximumf (F := Ideal) (φ := .f32)
    (addf (F := Ideal) (φ := .f32)
      (Host.scatterAdd (F := Ideal) (φ := .f32) scatter_S100000x128_S1700000x1_S1700000x128_1_0_0_1 (featureZeros (F := Ideal))
        (broadcastInDim S1700000x1 ![0] bcast_S1700000_S1700000x1_0 t)
        (mulf (F := Ideal) (φ := .f32)
          (Host.gather gather_S100000x128_S1700000x1_S1700000x128_1_0_n_n_0_1_1128
            (Host.dotGeneral (F := Ideal) (φ₁ := .f32) (φ₂ := .f32) dot_S100000x128_S128x128_S100000x128_1_0_0_1_n_n none X W) (wrapped (F := Ideal) s))
          (broadcastInDim S1700000x128 ![0, 1] bcast_S1700000x1_S1700000x128_0_1
            (broadcastInDim S1700000x1 ![0] bcast_S1700000_S1700000x1_0
              (mulf (F := Ideal) (φ := .f32)
                (Host.gather gather_S100000_S1700000x1_S1700000_n_0_n_n_0_1_1 d (wrapped (F := Ideal) s))
                (Host.gather gather_S100000_S1700000x1_S1700000_n_0_n_n_0_1_1 d (wrapped (F := Ideal) t)))))))
      (broadcastInDim S100000x128 ![0, 1] bcast_S1x128_S100000x128_0_1 (broadcastInDim S1x128 ![1] bcast_S128_S1x128_1 b)))
    (featureZeros (F := Ideal))

/-- The reference's layer is that, at the inverse square root degree: the definitions unfolded, nothing computed. -/
theorem layer_eq_layerBy (X : Reals Ideal S100000x128) (W : Reals Ideal S128x128) (b : Reals Ideal S128) (s t : Words Ideal S1700000) :
    layer (F := Ideal) X W b s t = layerBy X W b s t (invSqrtDegree (F := Ideal) t) := by
  rw [layer, layerBy, edgeWeight]

/-- The product X·W with row r scaled by d(r). -/
def scaledProductBy (X : Reals Ideal S100000x128) (W : Reals Ideal S128x128) (d : Reals Ideal S100000) : Reals Ideal S100000x128 :=
  fun i => (∑ k : Fin 128, X (ix2 (n0 := 100000) (n1 := 128) (i 0) k) * W (ix2 (n0 := 128) (n1 := 128) k (i 1))) * d (ix1 (n := 100000) (i 0))

theorem scaledProductBy_apply (X : Reals Ideal S100000x128) (W : Reals Ideal S128x128) (d : Reals Ideal S100000) (p : Fin 100000) (q : Fin 128) :
    scaledProductBy X W d (ix2 p q) = (∑ k : Fin 128, X (ix2 p k) * W (ix2 k q)) * d (ix1 p) := rfl

/-- The rows of an array gathered along the sources and summed onto the targets. -/
def spreadRows (A : Reals Ideal S100000x128) (s t : Words Ideal S1700000) : Reals Ideal S100000x128 :=
  Host.scatterAdd (F := Ideal) (φ := .f32) scatter_S100000x128_S1700000x1_S1700000x128_1_0_0_1 (featureZeros (F := Ideal))
    (broadcastInDim S1700000x1 ![0] bcast_S1700000_S1700000x1_0 t)
    (Host.gather gather_S100000x128_S1700000x1_S1700000x128_1_0_n_n_0_1_1128 A (wrapped (F := Ideal) s))

/-- Entry (p, q) of the spread rows: the sum, over the edges into p, of the row its source reads. -/
theorem spreadRows_apply (A : Reals Ideal S100000x128) (s t : Words Ideal S1700000) (p : Fin 100000) (q : Fin 128) :
    spreadRows A s t (ix2 p q) = ∑ e ∈ edgesInto t p, A (ix2 (nodeOf s e) q) := by
  rw [spreadRows, scatteredRows_apply]
  exact Finset.sum_congr rfl fun e _ => gatheredRow_apply A s e q

/-- The layer with the scaling by d before the gather and after the scatter. -/
def layerSplitBy (X : Reals Ideal S100000x128) (W : Reals Ideal S128x128) (b : Reals Ideal S128) (s t : Words Ideal S1700000)
    (d : Reals Ideal S100000) : Reals Ideal S100000x128 :=
  clampedAffine (spreadRows (scaledProductBy X W d) s t) (alongRows d) (alongColumns b)

/-- The reference's arrangement at an entry. -/
theorem layerBy_apply (X : Reals Ideal S100000x128) (W : Reals Ideal S128x128) (b : Reals Ideal S128) (s t : Words Ideal S1700000)
    (d : Reals Ideal S100000) (p : Fin 100000) (q : Fin 128) :
    layerBy X W b s t d (ix2 p q)
      = max ((∑ e ∈ edgesInto t p, (∑ k : Fin 128, X (ix2 (nodeOf s e) k) * W (ix2 k q))
                * (d (ix1 (nodeOf s e)) * d (ix1 (nodeOf t e)))) + b (ix1 q)) 0 := by
  rw [layerBy, ValueIdx.maximumf_apply, ValueIdx.addf_apply, scatteredRows_apply, featureZeros_apply,
    Broadcasts.repeat_apply, Broadcasts.row_apply]
  refine congrArg (fun z => max (z + b (ix1 q)) 0) (Finset.sum_congr rfl fun e _ => ?_)
  rw [ValueIdx.mulf_apply, gatheredRow_apply, dot_apply, Broadcasts.widen_apply, Broadcasts.column_apply, gatheredPair_apply]

/-- The other arrangement at an entry. -/
theorem layerSplitBy_apply (X : Reals Ideal S100000x128) (W : Reals Ideal S128x128) (b : Reals Ideal S128) (s t : Words Ideal S1700000)
    (d : Reals Ideal S100000) (p : Fin 100000) (q : Fin 128) :
    layerSplitBy X W b s t d (ix2 p q)
      = max ((∑ e ∈ edgesInto t p, (∑ k : Fin 128, X (ix2 (nodeOf s e) k) * W (ix2 k q)) * d (ix1 (nodeOf s e)))
                * d (ix1 p) + b (ix1 q)) 0 := by
  rw [layerSplitBy, clampedAffine_apply, spreadRows_apply, alongRows_apply, alongColumns_apply]
  refine congrArg (fun z => max (z * d (ix1 p) + b (ix1 q)) 0) (Finset.sum_congr rfl fun e _ => ?_)
  rw [scaledProductBy_apply]

/-- THE LAW, for any node array that is nowhere negative and nowhere infinite. -/
theorem layerSplitBy_eq_layerBy (X : Reals Ideal S100000x128) (W : Reals Ideal S128x128) (b : Reals Ideal S128) (s t : Words Ideal S1700000)
    (d : Reals Ideal S100000) (hd : ∀ r : Fin 100000, 0 ≤ d (ix1 r) ∧ d (ix1 r) ≠ ⊤) :
    layerSplitBy X W b s t d = layerBy X W b s t d := by
  funext i
  obtain ⟨p, q, rfl⟩ : ∃ (p : Fin 100000) (q : Fin 128), i = ix2 p q := ⟨i 0, i 1, eq_ix2 i⟩
  rw [layerSplitBy_apply, layerBy_apply]
  refine congrArg (fun z => max (z + b (ix1 q)) 0) ?_
  rw [RowOps.sum_mul_of_nonneg_ne_top _ _ _ (hd p).1 (hd p).2]
  refine Finset.sum_congr rfl fun e he => ?_
  have hp : nodeOf t e = p := by
    unfold edgesInto at he
    exact nodeOf_eq t e p (Finset.mem_filter.mp he).2
  rw [hp, mul_assoc]

/-- THE LAW at the inverse square root degree: the split arrangement is the reference's layer. -/
theorem layerSplitBy_eq_layer (X : Reals Ideal S100000x128) (W : Reals Ideal S128x128) (b : Reals Ideal S128) (s t : Words Ideal S1700000) :
    layerSplitBy X W b s t (invSqrtDegree (F := Ideal) t) = layer (F := Ideal) X W b s t :=
  (layerSplitBy_eq_layerBy X W b s t (invSqrtDegree (F := Ideal) t) (invSqrtDegree_bounds t)).trans (layer_eq_layerBy X W b s t).symm

end Cert.ReferenceIdeal.Stage

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.LibHostReads.lean ====
/-
  Two more host operations on the extended reals, read at an entry, at arbitrary sizes.

  The host's division is, entry by entry, the division of the extended reals.  The host's sum of an m × q array along
  its rows, from an initial value, has at row e the initial value plus the sum of the row's q entries.
-/
import Idealize.ShloMosaic.Lib.ValueIdx
import Idealize.ShloMosaic.PureOps.Ideal.Laws

noncomputable section

open scoped BigOperators

namespace HostReads

open Idealize.ShloMosaic Idealize.ShloMosaic.ValueIdx

/-- The host's division at an entry. -/
theorem hostDivf_apply {s : Shape} (x y : FVec Ideal s .f32) (i : s.Idx) :
    Host.divf (F := Ideal) (φ := .f32) x y i = Ideal.div (x i) (y i) := rfl

/-- The host's sum along the rows at row e: the initial value plus the sum of the row's entries. -/
theorem hostRowSum_apply {m q : Nat} (h' : (⟨2, ![m, q]⟩ : Shape).ReducesTo [1] ⟨1, ![m]⟩)
    (h : (⟨2, ![m, q]⟩ : Shape).Reduces [1] ⟨1, ![m]⟩) (hu : 0 < (⟨0, ![]⟩ : Shape).numel)
    (X : (⟨2, ![m, q]⟩ : Shape).Idx → EReal) (z : (⟨0, ![]⟩ : Shape).Idx → EReal) (e : Fin m) :
    Host.reduceAdd (F := Ideal) (φ := .f32) X z h' hu (ix1 e) = z (Shape.Idx.first hu) + ∑ k : Fin q, X (ix2 e k) := by
  simp only [Host.reduceAdd, Ideal.hostReduceAdd_def]
  rw [Ideal.hostReduceAdd_single h' h]
  refine congrArg (_ + ·) ?_
  show ∑ k : Fin q, X (h.lift (ix1 e) k) = ∑ k : Fin q, X (ix2 e k)
  refine Finset.sum_congr rfl fun k _ => congrArg X (funext fun a => Fin.ext ?_)
  match a with
  | ⟨0, _⟩ => rfl
  | ⟨1, _⟩ => rfl

end HostReads

end
-- ==== Proof.Bridge.lean ====
/-
  The kernel's result is the reference's.

  Each of the kernel's two layers is the arrangement "scale before the gather and after the scatter" of the reference's
  layer, which the law turns into the reference's own.  The pooled rows agree entry by entry: the same segment sums
  divided by the same larger-of-count-and-one, read once through a column and once through two broadcasts.  The
  decoded values agree entry by entry: the same pooled rows gathered for the same pairs, multiplied and summed over
  the features, the host's sum starting from zero.  Every entry-by-entry step is stated for arbitrary arrays in place
  of the large intermediate ones, so that no sum over the edges or the pairs is ever opened.
-/
import proofs.«109980_j48129403519138_2_alg».proof.Proof.ChainB
import proofs.«109980_j48129403519138_2_alg».proof.Proof.LayerLaw
import proofs.«109980_j48129403519138_2_alg».proof.Proof.LibUnitReshapes
import proofs.«109980_j48129403519138_2_alg».proof.Proof.LibHostReads

set_option maxRecDepth 16384

noncomputable section

open scoped BigOperators

namespace Cert.KernelIdeal.Chain

open Cert.KernelIdeal Cert.KernelIdeal.Gen Cert.KernelIdeal.RegionValue
open Idealize.ShloMosaic Idealize.ShloMosaic.ValueIdx
open Cert.ReferenceIdeal.Stage (Words Reals sources targets wrapped invSqrtDegree featureZeros nodeOnes count pairs firsts seconds wrappedPairs
  clampedAffine clampedAffine_apply alongRows alongRows_apply alongColumns alongColumns_apply scaledProductBy scaledProductBy_apply
  spreadRows layerSplitBy)

/-! ## A layer, for ANY node array read through a column and ANY summed rows -/

/-- A node array as a column. -/
def columnOf (d : Reals Ideal Cert.ReferenceIdeal.S100000) : S100000x1.Idx → EReal :=
  shapeCast S100000x1 d shapeCasts_S100000_S100000x1

/-- The column's entry (p, 0) is the array's entry p. -/
theorem columnOf_apply (d : Reals Ideal Cert.ReferenceIdeal.S100000) (p : Fin 100000) : columnOf d (ix2 p (0 : Fin 1)) = d (ix1 p) :=
  UnitReshapes.asColumn_apply _ _ p

/-- The bias row's entry (0, q) is the bias's entry q. -/
theorem biasRow_apply (b : Reals Ideal Cert.ReferenceIdeal.S128) (q : Fin 128) : biasRow b (ix2 (0 : Fin 1) q) = b (ix1 q) :=
  UnitReshapes.asRow_apply _ _ q

/-- The inverse square root degree as a column is the column of the inverse square root degree. -/
theorem degreeColumn_eq (x5 : Words Ideal Cert.ReferenceIdeal.S2x1600000) :
    degreeColumn x5 = columnOf (invSqrtDegree (F := Ideal) (targets (F := Ideal) x5)) := rfl

/-- Region 0's array over a column of d is the product with row r scaled by d(r). -/
theorem scaledProduct0_columnOf (X : Reals Ideal Cert.ReferenceIdeal.S100000x128) (W : Reals Ideal Cert.ReferenceIdeal.S128x128) (d : Reals Ideal Cert.ReferenceIdeal.S100000) :
    scaledProduct0 X W (columnOf d) = scaledProductBy X W d := by
  funext i
  obtain ⟨p, q, rfl⟩ : ∃ (p : Fin 100000) (q : Fin 128), i = ix2 p q := ⟨i 0, i 1, eq_ix2 i⟩
  rw [scaledProduct0_apply, columnOf_apply, scaledProductBy_apply]

/-- Region 2's array likewise. -/
theorem scaledProduct2_columnOf (X : Reals Ideal Cert.ReferenceIdeal.S100000x128) (W : Reals Ideal Cert.ReferenceIdeal.S128x128) (d : Reals Ideal Cert.ReferenceIdeal.S100000) :
    scaledProduct2 X W (columnOf d) = scaledProductBy X W d := by
  funext i
  obtain ⟨p, q, rfl⟩ : ∃ (p : Fin 100000) (q : Fin 128), i = ix2 p q := ⟨i 0, i 1, eq_ix2 i⟩
  rw [scaledProduct2_apply, columnOf_apply, scaledProductBy_apply]

/-- Region 1's body at an entry, for any three arrays. -/
theorem scaleBiasClamp1_apply (x : S100000x128.Idx → EReal) (d : S100000x1.Idx → EReal) (b : S1x128.Idx → EReal) (p : Fin 100000) (q : Fin 128) :
    scaleBiasClamp1 x d b (ix2 p q) = max (x (ix2 p q) * d (ix2 p (0 : Fin 1)) + b (ix2 (0 : Fin 1) q)) 0 := rfl

/-- Region 3's body at an entry, for any three arrays. -/
theorem scaleBiasClamp3_apply (x : S100000x128.Idx → EReal) (d : S100000x1.Idx → EReal) (b : S1x128.Idx → EReal) (p : Fin 100000) (q : Fin 128) :
    scaleBiasClamp3 x d b (ix2 p q) = max (x (ix2 p q) * d (ix2 p (0 : Fin 1)) + b (ix2 (0 : Fin 1) q)) 0 := rfl

/-- Region 1's body over ANY summed rows S: S scaled by d along the rows, plus the bias along the columns, clamped. -/
theorem scaleBiasClamp1_eq (S : Reals Ideal Cert.ReferenceIdeal.S100000x128) (d : Reals Ideal Cert.ReferenceIdeal.S100000) (b : Reals Ideal Cert.ReferenceIdeal.S128) :
    scaleBiasClamp1 S (columnOf d) (biasRow b) = clampedAffine S (alongRows d) (alongColumns b) := by
  funext i
  obtain ⟨p, q, rfl⟩ : ∃ (p : Fin 100000) (q : Fin 128), i = ix2 p q := ⟨i 0, i 1, eq_ix2 i⟩
  rw [scaleBiasClamp1_apply, clampedAffine_apply, columnOf_apply, biasRow_apply, alongRows_apply, alongColumns_apply]

/-- Region 3's body likewise. -/
theorem scaleBiasClamp3_eq (S : Reals Ideal Cert.ReferenceIdeal.S100000x128) (d : Reals Ideal Cert.ReferenceIdeal.S100000) (b : Reals Ideal Cert.ReferenceIdeal.S128) :
    scaleBiasClamp3 S (columnOf d) (biasRow b) = clampedAffine S (alongRows d) (alongColumns b) := by
  funext i
  obtain ⟨p, q, rfl⟩ : ∃ (p : Fin 100000) (q : Fin 128), i = ix2 p q := ⟨i 0, i 1, eq_ix2 i⟩
  rw [scaleBiasClamp3_apply, clampedAffine_apply, columnOf_apply, biasRow_apply, alongRows_apply, alongColumns_apply]

/-- The host's gather and scatter between two regions: the rows spread from the sources onto the targets. -/
theorem spread_eq (A : Reals Ideal Cert.ReferenceIdeal.S100000x128) (x5 : Words Ideal Cert.ReferenceIdeal.S2x1600000) :
    spread A x5 = spreadRows A (sources (F := Ideal) x5) (targets (F := Ideal) x5) := rfl

/-! ## The two layers -/

/-- The kernel's first layer is the reference's. -/
theorem firstLayer_eq (x0 : Reals Ideal Cert.ReferenceIdeal.S100000x128) (x1 : Reals Ideal Cert.ReferenceIdeal.S128x128) (x2 : Reals Ideal Cert.ReferenceIdeal.S128)
    (x5 : Words Ideal Cert.ReferenceIdeal.S2x1600000) :
    firstLayer x0 x1 x2 x5 = Cert.ReferenceIdeal.Stage.layer (F := Ideal) x0 x1 x2 (sources (F := Ideal) x5) (targets (F := Ideal) x5) := by
  rw [firstLayer, degreeColumn_eq, scaledProduct0_columnOf, spread_eq, scaleBiasClamp1_eq]
  exact Cert.ReferenceIdeal.Stage.layerSplitBy_eq_layer x0 x1 x2 (sources (F := Ideal) x5) (targets (F := Ideal) x5)

/-- The kernel's second layer is the reference's, over the reference's first. -/
theorem secondLayer_eq (x0 : Reals Ideal Cert.ReferenceIdeal.S100000x128) (x1 : Reals Ideal Cert.ReferenceIdeal.S128x128) (x2 : Reals Ideal Cert.ReferenceIdeal.S128)
    (x3 : Reals Ideal Cert.ReferenceIdeal.S128x128) (x4 : Reals Ideal Cert.ReferenceIdeal.S128) (x5 : Words Ideal Cert.ReferenceIdeal.S2x1600000) :
    secondLayer x0 x1 x2 x3 x4 x5
      = Cert.ReferenceIdeal.Stage.layer (F := Ideal) (Cert.ReferenceIdeal.Stage.layer (F := Ideal) x0 x1 x2 (sources (F := Ideal) x5) (targets (F := Ideal) x5))
          x3 x4 (sources (F := Ideal) x5) (targets (F := Ideal) x5) := by
  rw [secondLayer, firstLayer_eq, degreeColumn_eq, scaledProduct2_columnOf, spread_eq, scaleBiasClamp3_eq]
  exact Cert.ReferenceIdeal.Stage.layerSplitBy_eq_layer _ x3 x4 (sources (F := Ideal) x5) (targets (F := Ideal) x5)

/-! ## The pooled rows -/

/-- One at every node reads the literal one. -/
theorem nodeOnes_apply (p : Fin 100000) : nodeOnes (F := Ideal) (ix1 p) = Ideal.ofBits .f32 0x3F800000#32 := by
  rw [Cert.ReferenceIdeal.Stage.nodeOnes, Broadcasts.scalar_apply]
  rfl

/-- For ANY summed rows S and ANY counts C: region 4's division through a column is the reference's through two broadcasts. -/
theorem divideByCount4_eq (S : Reals Ideal Cert.ReferenceIdeal.S100000x128) (C : Reals Ideal Cert.ReferenceIdeal.S100000) :
    divideByCount4 S (shapeCast S100000x1 C shapeCasts_S100000_S100000x1)
      = Host.divf (F := Ideal) (φ := .f32) S
          (broadcastInDim Cert.ReferenceIdeal.S100000x128 ![0, 1] Cert.ReferenceIdeal.Gen.bcast_S100000x1_S100000x128_0_1
            (broadcastInDim Cert.ReferenceIdeal.S100000x1 ![0] Cert.ReferenceIdeal.Gen.bcast_S100000_S100000x1_0
              (maximumf (F := Ideal) (φ := .f32) C (nodeOnes (F := Ideal))))) := by
  funext i
  obtain ⟨p, q, rfl⟩ : ∃ (p : Fin 100000) (q : Fin 128), i = ix2 p q := ⟨i 0, i 1, eq_ix2 i⟩
  rw [divideByCount4_apply, UnitReshapes.asColumn_apply, HostReads.hostDivf_apply, Broadcasts.widen_apply, Broadcasts.column_apply,
    ValueIdx.maximumf_apply, nodeOnes_apply]

/-- The kernel's pooled rows are the reference's. -/
theorem pooledRows_eq (H : Reals Ideal Cert.ReferenceIdeal.S100000x128) (x6 : Words Ideal Cert.ReferenceIdeal.S100000) :
    pooledRows H x6 = Cert.ReferenceIdeal.Stage.pooled (F := Ideal) H x6 := by
  rw [pooledRows, Cert.ReferenceIdeal.Stage.pooled, countColumn]
  exact divideByCount4_eq (segmentSums H x6) (count (F := Ideal) x6)

/-! ## The decoded pairs -/

/-- For ANY two arrays of gathered rows: region 5's row sums with the unit axis dropped are the host's row sums. -/
theorem rowDot5_eq (A B : Reals Ideal Cert.ReferenceIdeal.S400000x128) :
    shapeCast S400000 (rowDot5 A B) shapeCasts_S400000x1_S400000
      = Host.reduceAdd (F := Ideal) (φ := .f32) (mulf (F := Ideal) (φ := .f32) A B) (constant (F := Ideal) Cert.ReferenceIdeal.S_ .f32 0x00000000#32)
          Cert.ReferenceIdeal.Gen.reducesTo_S400000x128_S400000_d1 Cert.ReferenceIdeal.Gen.h_S_ := by
  funext i
  obtain ⟨e, rfl⟩ : ∃ e : Fin 400000, i = ix1 e := ⟨i 0, eq_ix1 i⟩
  rw [UnitReshapes.ofColumn_apply, rowDot5_apply, HostReads.hostRowSum_apply _ (by decide)]
  have h0 : constant (F := Ideal) Cert.ReferenceIdeal.S_ .f32 0x00000000#32 (Shape.Idx.first Cert.ReferenceIdeal.Gen.h_S_) = 0 := Ideal.ofBits_zero_f32
  rw [h0, zero_add]
  exact Finset.sum_congr rfl fun k _ => (ValueIdx.mulf_apply A B (ix2 e k)).symm

/-- THE BRIDGE: the kernel's result of nine arrays is the reference's result of the same arrays. -/
theorem kernelResult_eq (x0 : Reals Ideal Cert.ReferenceIdeal.S100000x128) (x1 : Reals Ideal Cert.ReferenceIdeal.S128x128) (x2 : Reals Ideal Cert.ReferenceIdeal.S128)
    (x3 : Reals Ideal Cert.ReferenceIdeal.S128x128) (x4 : Reals Ideal Cert.ReferenceIdeal.S128) (x5 : Words Ideal Cert.ReferenceIdeal.S2x1600000) (x6 : Words Ideal Cert.ReferenceIdeal.S100000)
    (x7 x8 : Words Ideal Cert.ReferenceIdeal.S2x200000) :
    kernelResult x0 x1 x2 x3 x4 x5 x6 x7 x8 = Cert.ReferenceIdeal.Stage.result (F := Ideal) x0 x1 x2 x3 x4 x5 x6 x7 x8 := by
  rw [kernelResult, Cert.ReferenceIdeal.Stage.result, secondLayer_eq, pooledRows_eq, Cert.ReferenceIdeal.Stage.decoded]
  exact rowDot5_eq _ _

end Cert.KernelIdeal.Chain

end
-- ==== Proof.lean ====
/-
  A two-layer graph convolution with symmetric degree normalisation, a mean over pooling segments, and the dot
  products of the pooled rows of 400 000 pairs of nodes: the kernel against its reference, on the extended reals.

  With d the inverse square root degree (zero where the degree is not positive), E(p) the edges into node p and r(e)
  the node an edge's source reads, the reference's layer is
      out(p, ·) = max( Σ_{e ∈ E(p)} (X·W)(r(e), ·) · (d(r(e)) · d(p)) + b, 0 ),
  every message scaled by both endpoints' d.  The kernel scales the rows of X·W by d in the matrix product's region,
  lets the host gather and sum the scaled rows, and scales the sums by d again in the region that adds the bias and
  clamps:
      out(p, ·) = max( (Σ_{e ∈ E(p)} (X·W)(r(e), ·) · d(r(e))) · d(p) + b, 0 ).
  The two agree because the product is associative and because d(p) is never negative and never infinite, so it moves
  across a sum of extended reals; nothing is asked of the inputs beyond what the statement gives.  The pooling and the
  decoding are the same operations on both sides, the kernel's done block by block.

  The kernel's frames are the generated ones.  Its run with the result named follows the fourteen segments of the
  program (Proof/KernelRun.lean, Proof/ChainA.lean, Proof/ChainB.lean over the six regions' arrays, Proof/Region*.lean).
  The reference's run and the reading of its 161 operations are Proof/RefRun.lean, Proof/RefStages.lean and
  Proof/RefRead.lean.  The law is Proof/LayerLaw.lean; Proof/Bridge.lean joins the two results.
-/
import proofs.«109980_j48129403519138_2_alg».proof.Defs
import proofs.«109980_j48129403519138_2_alg».proof.Proof.Gen.Kernel
import proofs.«109980_j48129403519138_2_alg».proof.Proof.Gen.Kernel.Frame
import proofs.«109980_j48129403519138_2_alg».proof.Proof.Gen.KernelIdeal
import proofs.«109980_j48129403519138_2_alg».proof.Proof.Gen.KernelIdeal.Frame
import proofs.«109980_j48129403519138_2_alg».proof.Proof.Gen.ReferenceIdeal
import proofs.«109980_j48129403519138_2_alg».proof.Proof.Gen.Pre_finite_inputs
import proofs.«109980_j48129403519138_2_alg».proof.Proof.KernelRun
import proofs.«109980_j48129403519138_2_alg».proof.Proof.RefRead
import proofs.«109980_j48129403519138_2_alg».proof.Proof.Bridge

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- From memories that agree on the nine arguments both programs end, with the same 400 000 values. -/
theorem algebraic : Cert.algebraic_KernelIdeal_ReferenceIdeal := by
  intro m ρ m' ρ' _ hagree
  refine ⟨fun c => Cert.KernelIdeal.Chain.kernelResult (Cert.KernelIdeal.Chain.arg0 m c) (Cert.KernelIdeal.Chain.arg1 m c)
      (Cert.KernelIdeal.Chain.arg2 m c) (Cert.KernelIdeal.Chain.arg3 m c) (Cert.KernelIdeal.Chain.arg4 m c) (Cert.KernelIdeal.Chain.arg5 m c)
      (Cert.KernelIdeal.Chain.arg6 m c) (Cert.KernelIdeal.Chain.arg7 m c) (Cert.KernelIdeal.Chain.arg8 m c), ?_, ?_⟩
  · exact (θ_run Cert.KernelIdeal.defs _ _).mono
      (fun _ h c => ⟨(h c).1.trans (Cert.KernelIdeal.Chain.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Line.run (F := Ideal) m' ρ')
    rw [Cert.ReferenceIdeal.Line.result_eq]
    show Cert.ReferenceIdeal.Stage.result (F := Ideal)
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.KernelIdeal.Chain.kernelResult_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
